-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x32 : Shape := ⟨2, ![262144, 32]⟩
abbrev S262144 : Shape := ⟨1, ![262144]⟩
abbrev S256 : Shape := ⟨1, ![256]⟩
abbrev S32x256 : Shape := ⟨2, ![32, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg5 : FVec F S32x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x256 .f32 := Host.absf main_arg5
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  main_v23

def fn {F : FTy → Type} [FloatOps F] (main_arg0 : FVec F S262144x256 .f32) (main_arg1 : FVec F S262144x32 .f32) (main_arg2 : IVec S262144 32) (main_arg3 : FVec F S256 .f32) (main_arg4 : FVec F S256 .f32) (main_arg5 : FVec F S32x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S262144x256 : Shape := ⟨2, ![262144, 256]⟩
abbrev S262144x32 : Shape := ⟨2, ![262144, 32]⟩
abbrev S262144 : Shape := ⟨1, ![262144]⟩
abbrev S256 : Shape := ⟨1, ![256]⟩
abbrev S32x256 : Shape := ⟨2, ![32, 256]⟩
abbrev S2x32x256 : Shape := ⟨3, ![2, 32, 256]⟩
abbrev S4096x32 : Shape := ⟨2, ![4096, 32]⟩
abbrev S4096x256 : Shape := ⟨2, ![4096, 256]⟩
abbrev S1x32x256 : Shape := ⟨3, ![1, 32, 256]⟩
abbrev S_ : Shape := ⟨0, ![]⟩
abbrev S1024x256 : Shape := ⟨2, ![1024, 256]⟩
abbrev S262144x1 : Shape := ⟨2, ![262144, 1]⟩
abbrev S1024 : Shape := ⟨1, ![1024]⟩
abbrev S1024x1 : Shape := ⟨2, ![1024, 1]⟩
abbrev S1x256 : Shape := ⟨2, ![1, 256]⟩

abbrev nBuf : Space → Nat
  | .hbm => 57
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S262144x32, .f32⟩
  | .hbm, ⟨2, _⟩ => ⟨S262144, .i32⟩
  | .hbm, ⟨3, _⟩ => ⟨S256, .f32⟩
  | .hbm, ⟨4, _⟩ => ⟨S256, .f32⟩
  | .hbm, ⟨5, _⟩ => ⟨S32x256, .f32⟩
  | .hbm, ⟨6, _⟩ => ⟨S2x32x256, .f32⟩
  | .hbm, ⟨7, _⟩ => ⟨S1x32x256, .f32⟩
  | .hbm, ⟨8, _⟩ => ⟨S32x256, .f32⟩
  | .hbm, ⟨9, _⟩ => ⟨S1x32x256, .f32⟩
  | .hbm, ⟨10, _⟩ => ⟨S32x256, .f32⟩
  | .hbm, ⟨11, _⟩ => ⟨S32x256, .f32⟩
  | .hbm, ⟨12, _⟩ => ⟨S_, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S262144x256, .f32⟩
  | .hbm, ⟨17, _⟩ => ⟨S262144x256, .f32⟩
  | .hbm, ⟨18, _⟩ => ⟨S_, .f32⟩
  | .hbm, ⟨19, _⟩ => ⟨S1024x256, .f32⟩
  | .hbm, ⟨20, _⟩ => ⟨S262144x1, .i32⟩
  | .hbm, ⟨21, _⟩ => ⟨S1024x256, .f32⟩
  | .hbm, ⟨22, _⟩ => ⟨S_, .f32⟩
  | .hbm, ⟨23, _⟩ => ⟨S262144, .f32⟩
  | .hbm, ⟨24, _⟩ => ⟨S_, .f32⟩
  | .hbm, ⟨25, _⟩ => ⟨S1024, .f32⟩
  | .hbm, ⟨26, _⟩ => ⟨S262144x1, .i32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024x1, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1x256, .f32⟩
  | .hbm, ⟨42, _⟩ => ⟨S262144x256, .f32⟩
  | .hbm, ⟨43, _⟩ => ⟨S262144x256, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x256, .f32⟩
  | .hbm, ⟨53, _⟩ => ⟨S262144x256, .f32⟩
  | .hbm, ⟨54, _⟩ => ⟨S1x256, .f32⟩
  | .hbm, ⟨55, _⟩ => ⟨S262144x256, .f32⟩
  | .hbm, ⟨56, _⟩ => ⟨S262144x256, .f32⟩
  | .local _ .vmem, ⟨0, _⟩ => ⟨S4096x32, .f32⟩
  | .local _ .vmem, ⟨1, _⟩ => ⟨S4096x32, .f32⟩
  | .local _ .vmem, ⟨2, _⟩ => ⟨S4096x256, .f32⟩
  | .local _ .vmem, ⟨3, _⟩ => ⟨S4096x256, .f32⟩
  | .local _ .vmem, ⟨4, _⟩ => ⟨S1x32x256, .f32⟩
  | .local _ .vmem, ⟨5, _⟩ => ⟨S1x32x256, .f32⟩
  | .local _ .vmem, ⟨6, _⟩ => ⟨S32x256, .f32⟩
  | .local _ .vmem, ⟨7, _⟩ => ⟨S4096x32, .f32⟩
  | .local _ .vmem, ⟨8, _⟩ => ⟨S4096x32, .f32⟩
  | .local _ .vmem, ⟨9, _⟩ => ⟨S4096x256, .f32⟩
  | .local _ .vmem, ⟨10, _⟩ => ⟨S4096x256, .f32⟩
  | .local _ .vmem, ⟨11, _⟩ => ⟨S32x256, .f32⟩
  | .local _ .vmem, ⟨12, _⟩ => ⟨S4096x256, .f32⟩
  | .local _ .vmem, ⟨13, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  slices_S2x32x256_S1x32x256_0_0_0 : S2x32x256.Slices ![0, 0, 0] S1x32x256
  slices_S2x32x256_S1x32x256_1_0_0 : S2x32x256.Slices ![1, 0, 0] S1x32x256
  bcast_S_S32x256 : S_.BroadcastsInDim S32x256 (![] : Fin 0 → Fin S32x256.rank)
  bcast_S_S1024x256 : S_.BroadcastsInDim S1024x256 (![] : Fin 0 → Fin S1024x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S4096x32_S4096x256_S32x256_0_0_1_1_n_n_wf : DotDims.WF S4096x32 S4096x256 S32x256 [0] [0] [1] [1] [] []
  dot_S4096x32_S32x256_S4096x256_1_0_0_1_n_n_wf : DotDims.WF S4096x32 S32x256 S4096x256 [1] [0] [0] [1] [] []
  scatter_S1024x256_S262144x1_S262144x256_1_0_0_1_wf : ScatterDims.WF S1024x256 S262144x1 S262144x256 [1] [0] [0] 1
  scatter_S1024_S262144x1_S262144_n_0_0_1_wf : ScatterDims.WF S1024 S262144x1 S262144 [] [0] [0] 1
  gather_S1024x256_S262144x1_S262144x256_1_0_n_n_0_1_1256_wf : GatherDims.WF S1024x256 S262144x1 S262144x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S262144x32.size a
  hwx0_0 : ∀ i : grid0.Coords, EltTy.bits .f32 = 32 ∨ (Rect.block (s := S262144x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256.size a ≤ S2x32x256.size a
  hwx0_2 : ∀ i : grid0.Coords, EltTy.bits .f32 = 32 ∨ (Rect.block (s := S2x32x256) S1x32x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S262144x32.size a
  hwx1_0 : ∀ i : grid1.Coords, EltTy.bits .f32 = 32 ∨ (Rect.block (s := S262144x32) S4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .f32 = 32 ∨ (Rect.block (s := S262144x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S32x256.size a
  hwx1_2 : ∀ i : grid1.Coords, EltTy.bits .f32 = 32 ∨ (Rect.block (s := S32x256) S32x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S262144x256.size a
  hwx1_3 : ∀ i : grid1.Coords, EltTy.bits .f32 = 32 ∨ (Rect.block (s := S262144x256) S4096x256.size (cc1_transform_3 i) (hinb1_3 i)).WholeWords (EltTy.packing .f32)

variable [Facts₀]

def dot_S4096x32_S4096x256_S32x256_0_0_1_1_n_n : DotDims S4096x32 S4096x256 S32x256 where
  lhsContracting := [0]
  rhsContracting := [0]
  lhsNonContracting := [1]
  rhsNonContracting := [1]
  lhsBatch := []
  rhsBatch := []
  wf := dot_S4096x32_S4096x256_S32x256_0_0_1_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def gather_S1024x256_S262144x1_S262144x256_1_0_n_n_0_1_1256 : GatherDims S1024x256 S262144x1 S262144x256 where
  offsetDims := [1]
  collapsedSliceDims := [0]
  operandBatchingDims := []
  startIndicesBatchingDims := []
  startIndexMap := [0]
  indexVectorDim := 1
  sliceSizes := ![1, 256]
  wf := gather_S1024x256_S262144x1_S262144x256_1_0_n_n_0_1_1256_wf

abbrev win0_0 : Pipeline.Window sig grid0 :=
  Pipeline.Window.ofSpec (Memref.whole main_arg1) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S32x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144x32 : Shape := ⟨2, ![262144, 32]⟩
abbrev S262144 : Shape := ⟨1, ![262144]⟩
abbrev S256 : Shape := ⟨1, ![256]⟩
abbrev S32x256 : Shape := ⟨2, ![32, 256]⟩
abbrev S_ : Shape := ⟨0, ![]⟩
abbrev S1024x256 : Shape := ⟨2, ![1024, 256]⟩
abbrev S262144x1 : Shape := ⟨2, ![262144, 1]⟩
abbrev S1024 : Shape := ⟨1, ![1024]⟩
abbrev S1024x1 : Shape := ⟨2, ![1024, 1]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x32, .f32⟩
  | .hbm, ⟨2, _⟩ => ⟨S262144, .i32⟩
  | .hbm, ⟨3, _⟩ => ⟨S256, .f32⟩
  | .hbm, ⟨4, _⟩ => ⟨S256, .f32⟩
  | .hbm, ⟨5, _⟩ => ⟨S32x256, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S_, .f32⟩
  | .hbm, ⟨15, _⟩ => ⟨S1024x256, .f32⟩
  | .hbm, ⟨16, _⟩ => ⟨S262144x1, .i32⟩
  | .hbm, ⟨17, _⟩ => ⟨S1024x256, .f32⟩
  | .hbm, ⟨18, _⟩ => ⟨S_, .f32⟩
  | .hbm, ⟨19, _⟩ => ⟨S262144, .f32⟩
  | .hbm, ⟨20, _⟩ => ⟨S_, .f32⟩
  | .hbm, ⟨21, _⟩ => ⟨S1024, .f32⟩
  | .hbm, ⟨22, _⟩ => ⟨S262144x1, .i32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x256, .f32⟩
  | .hbm, ⟨43, _⟩ => ⟨S1x256, .f32⟩
  | .hbm, ⟨44, _⟩ => ⟨S262144x256, .f32⟩
  | .hbm, ⟨45, _⟩ => ⟨S262144x256, .f32⟩
  | .hbm, ⟨46, _⟩ => ⟨S262144x256, .f32⟩
  | .hbm, ⟨47, _⟩ => ⟨S1x256, .f32⟩
  | .hbm, ⟨48, _⟩ => ⟨S262144x256, .f32⟩
  | .hbm, ⟨49, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S32x256 : S_.BroadcastsInDim S32x256 (![] : Fin 0 → Fin S32x256.rank)
  bcast_S_S1024x256 : S_.BroadcastsInDim S1024x256 (![] : Fin 0 → Fin S1024x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x32_S262144x256_S32x256_0_0_1_1_n_n_wf : DotDims.WF S262144x32 S262144x256 S32x256 [0] [0] [1] [1] [] []
  dot_S262144x32_S32x256_S262144x256_1_0_0_1_n_n_wf : DotDims.WF S262144x32 S32x256 S262144x256 [1] [0] [0] [1] [] []
  scatter_S1024x256_S262144x1_S262144x256_1_0_0_1_wf : ScatterDims.WF S1024x256 S262144x1 S262144x256 [1] [0] [0] 1
  scatter_S1024_S262144x1_S262144_n_0_0_1_wf : ScatterDims.WF S1024 S262144x1 S262144 [] [0] [0] 1
  gather_S1024x256_S262144x1_S262144x256_1_0_n_n_0_1_1256_wf : GatherDims.WF S1024x256 S262144x1 S262144x256 [1] [0] [] [0] [] 1 ![1, 256]

variable [Facts₀]

def dot_S262144x32_S262144x256_S32x256_0_0_1_1_n_n : DotDims S262144x32 S262144x256 S32x256 where
  lhsContracting := [0]
  rhsContracting := [0]
  lhsNonContracting := [1]
  rhsNonContracting := [1]
  lhsBatch := []
  rhsBatch := []
  wf := dot_S262144x32_S262144x256_S32x256_0_0_1_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf
def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def gather_S1024x256_S262144x1_S262144x256_1_0_n_n_0_1_1256 : GatherDims S1024x256 S262144x1 S262144x256 where
  offsetDims := [1]
  collapsedSliceDims := [0]
  operandBatchingDims := []
  startIndicesBatchingDims := []
  startIndexMap := [0]
  indexVectorDim := 1
  sliceSizes := ![1, 256]
  wf := gather_S1024x256_S262144x1_S262144x256_1_0_n_n_0_1_1256_wf

class Facts : Prop extends Facts₀ where

variable [Facts]
-- ==== Proof.K.R0Defs.lean ====
/- Region 0 (the contribution kernel, grid 2 x 32): what its three control cases share. The blocks of its
   windows read off the entry contents V; the two branch conditions in closed form over the 64 points
   (the first holds iff t % 32 = 0, the second iff t % 32 = 31); where the output window 2 is idle and
   where it is live; the staging memrefs at a point; the accumulator scratch as a memref; and the class
   invariant with the scratch split off from the other scoped buffers. -/
import proofs.«109299_j87754771792653_2_alg».proof.Proof.Gen.Kernel.Launch
import proofs.«109299_j87754771792653_2_alg».proof.Proof.Gen.Kernel.Skeleton
import proofs.«109299_j87754771792653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The evectors window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the x window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (is the inner coordinate 0?), from the grid coordinates. -/
abbrev cond0_0 (i : grid0.Coords) : Prop := (Scalar.cmpi .ne (Scalar.extui (Scalar.cmpi .eq (BitVec.ofNat 32 (i 1).val) 0#32)) 0#32) = 1#1
/-- It holds at the first point of each row. -/
theorem hcond0_0 : ∀ t : Fin cfg0.N, cond0_0 (grid0.coords t) ↔ t.val % 32 = 0 :=
  (by decide +kernel : ∀ t : Fin grid0.N, cond0_0 (grid0.coords t) ↔ t.val % 32 = 0)

/-- The second conditional's condition (is the inner coordinate 31?). -/
abbrev cond0_1 (i : grid0.Coords) : Prop := k0_cond2 i = 1#1
/-- It holds at the last point of each row. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a row's first point the output is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a row's inner points likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a row's last point the output is live: the body stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x32x256 .f32 := (Memref.whole cc0_stg2_0 : Memref sig .tc .vmem S1x32x256 .f32).view
/-- Each window's current staging memref at point `t`, and its wholeness. -/
abbrev ms0_0 (t : Fin cfg0.N) : Memref sig .tc .vmem S4096x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256 .f32 := win0_2.stage (cfg0.slots t 2)
abbrev hs0_2 (t : Fin cfg0.N) : (ms0_2 t).IsWhole := hstage0_2 ((cfg0.slots t 2).cast nbuf0_2)
/-- The accumulator scratch: a whole scoped buffer of the kernel's own, passed beside the windows. -/
abbrev scM0_0 : Memref sig .tc .vmem S32x256 .f32 := Memref.whole cc0_scratch0
/-- The scratch as a view: what it holds is stated through it. -/
abbrev VS0_0 : View sig .tc .vmem S32x256 .f32 := scM0_0.view

/-- The other scoped buffers of the core (region 1's staging buffers), each at some contents: they pass through
    region 0 untouched. -/
abbrev restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents, then the other scoped buffers,
    then the generator register. -/
theorem PhiA0_eq (c : Dev nD) :
    (Pipeline.ΦA spec0 c : sProp 𝕄)
      = iprop(iprop((∃ d, owns (c : Thread nD τ) scM0_0 fullShare d) ∗ restOf0 (F := F) c) ∗ (∃ r, prngReg c r)) := by
  unfold Pipeline.ΦA; rw [scopedRest0_eq]; simp only [scM0_0, owns_whole]; try rfl

end Cert.Kernel.Hand
end
-- ==== Proof.K.R0RunA.lean ====
/- Region 0, case A (a row's first point: the first conditional taken, the second not): the whole body run
   once. The scratch is taken at any contents; the body overwrites it with zeros and then with the first
   partial product added to them; the output buffer is not touched and is handed back as found. The pieces the
   scratch ends with are the witness the run finds. -/
import proofs.«109299_j87754771792653_2_alg».proof.Proof.K.R0Defs

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case A leaves in the output buffer (none) and in the scratch, with the body's triple on whole
    memrefs: inputs at `x0`, `x1`; output at `xi2`, handed back untouched; scratch at anything. -/
noncomputable def kernelRun0_A (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) :
    Σ' (L2 : List (View.Piece (Elt F) S1x32x256 .f32)), { LS0 : List (View.Piece (Elt F) S32x256 .f32) //
      ∀ (xi2 : Vec F S1x32x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨[], ?_, fun xi2 E K => ?run⟩
  case run =>
    simp only [cc0__contribute_kernel_eq_skeleton]; unfold cc0__contribute_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand
end
-- ==== Proof.K.R0RunB.lean ====
/- Region 0, case B (a row's inner points: neither conditional taken): the whole body run once. The scratch
   is taken at what the point before left; the body adds this point's partial product to it; the output buffer is
   not touched and is handed back as found. -/
import proofs.«109299_j87754771792653_2_alg».proof.Proof.K.R0RunA

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case B leaves in the output buffer (none) and in the scratch, with the body's triple on whole
    memrefs: inputs at `x0`, `x1`; output at `xi2`, handed back untouched; scratch at `xs0`. -/
noncomputable def kernelRun0_B (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) :
    Σ' (L2 : List (View.Piece (Elt F) S1x32x256 .f32)), { LS0 : List (View.Piece (Elt F) S32x256 .f32) //
      ∀ (xi2 : Vec F S1x32x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨[], ?_, fun xi2 E K => ?run⟩
  case run =>
    simp only [cc0__contribute_kernel_eq_skeleton]; unfold cc0__contribute_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand
end
-- ==== Proof.K.R0RunC.lean ====
/- Region 0, case C (a row's last point: the first conditional not taken, the second taken): the whole body
   run once. The scratch is taken at what the point before left; the body adds this point's partial product to
   it, then stores the scratch, reshaped, over the whole output buffer, which it takes at any contents. -/
import proofs.«109299_j87754771792653_2_alg».proof.Proof.K.R0RunB

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case C leaves in the output buffer and in the scratch, with the body's triple on whole memrefs:
    inputs at `x0`, `x1`; output at anything; scratch at `xs0`. -/
noncomputable def kernelRun0_C (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) :
    Σ' (L2 : List (View.Piece (Elt F) S1x32x256 .f32)), { LS0 : List (View.Piece (Elt F) S32x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨?_, ?_, fun E K => ?run⟩
  case run =>
    simp only [cc0__contribute_kernel_eq_skeleton]; unfold cc0__contribute_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand
end
-- ==== Proof.K.R0Frame.lean ====
/- Region 0 (the contribution kernel): the frame half. Per case, what the run's pieces leave in the
   output buffer and in the accumulator scratch, read back over junk, and that the pieces cover the buffer;
   the pair (output buffer, scratch) after each of the 64 points, by recursion on the point (a row's first
   point restarts the scratch, an inner point adds to what the point before left, a row's last point also
   stores the output); the invariant that carries the scratch from point to point; the proof data; the body
   obligation; and the invariant's two ends. Everything is stated at the entry contents V. -/
import proofs.«109299_j87754771792653_2_alg».proof.Proof.K.R0RunC

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The conditions at a point, from its residue mod 32 -/

theorem notC1_of_A (t : Fin cfg0.N) (h0 : t.val % 32 = 0) : ¬cond0_1 (grid0.coords t) :=
  fun h => by have h' := (hcond0_1 t).mp h; omega
theorem notC0_of (t : Fin cfg0.N) (h0 : ¬t.val % 32 = 0) : ¬cond0_0 (grid0.coords t) :=
  fun h => h0 ((hcond0_0 t).mp h)
theorem notC1_of (t : Fin cfg0.N) (h1 : ¬t.val % 32 = 31) : ¬cond0_1 (grid0.coords t) :=
  fun h => h1 ((hcond0_1 t).mp h)

/-! ## What each case leaves -/

/-- Case A stores nothing into the output buffer: no pieces; a placeholder nothing consults. -/
def out0_A_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) : Vec F S1x32x256 .f32 :=
  VO0_2.read (Elt F) (VO0_2.writes (Elt F) VO0_2.junk (kernelRun0_A c i arg2 harg2 arg3 harg3 arg4 harg4 arg5 harg5 hc0 hc1 x0 x1).1)

/-- Case A's pieces for the scratch cover it. -/
theorem scover0_A_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) (y : S32x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S32x256.size (by sl_kernel_rfl) y

/-- What case A leaves in the scratch: its pieces read back over junk. -/
def sout0_A_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) : Vec F S32x256 .f32 :=
  VS0_0.read (Elt F) (VS0_0.writes (Elt F) VS0_0.junk (kernelRun0_A c i arg2 harg2 arg3 harg3 arg4 harg4 arg5 harg5 hc0 hc1 x0 x1).2.1)

/-- Case B stores nothing into the output buffer either. -/
def out0_B_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) : Vec F S1x32x256 .f32 :=
  VO0_2.read (Elt F) (VO0_2.writes (Elt F) VO0_2.junk (kernelRun0_B c i arg2 harg2 arg3 harg3 arg4 harg4 arg5 harg5 hc0 hc1 x0 x1 xs0).1)

/-- Case B's pieces for the scratch cover it. -/
theorem scover0_B_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) (y : S32x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S32x256.size (by sl_kernel_rfl) y

/-- What case B leaves in the scratch. -/
def sout0_B_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) : Vec F S32x256 .f32 :=
  VS0_0.read (Elt F) (VS0_0.writes (Elt F) VS0_0.junk (kernelRun0_B c i arg2 harg2 arg3 harg3 arg4 harg4 arg5 harg5 hc0 hc1 x0 x1 xs0).2.1)

/-- Case C's one store into the output buffer covers it. -/
theorem cover0_C_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) (y : S1x32x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x32x256.size (by sl_kernel_rfl) y

/-- What case C leaves in the output buffer. -/
def out0_C_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) : Vec F S1x32x256 .f32 :=
  VO0_2.read (Elt F) (VO0_2.writes (Elt F) VO0_2.junk (kernelRun0_C c i arg2 harg2 arg3 harg3 arg4 harg4 arg5 harg5 hc0 hc1 x0 x1 xs0).1)

/-- Case C's pieces for the scratch cover it. -/
theorem scover0_C_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) (y : S32x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S32x256.size (by sl_kernel_rfl) y

/-- What case C leaves in the scratch. -/
def sout0_C_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) : Vec F S32x256 .f32 :=
  VS0_0.read (Elt F) (VS0_0.writes (Elt F) VS0_0.junk (kernelRun0_C c i arg2 harg2 arg3 harg3 arg4 harg4 arg5 harg5 hc0 hc1 x0 x1 xs0).2.1)

/-! ## What the output buffer and the scratch hold after each point -/

/-- The pair (output buffer, scratch) after the body at position `n`: the case the residue of `n` mod 32
    selects, run at the point's memrefs and input blocks, over the scratch the point before left. -/
def outsAt0 (c : Dev nD) : (n : ℕ) → n < cfg0.N → Vec F S1x32x256 .f32 × Vec F S32x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC1_of_A ⟨0, hn⟩ (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC1_of_A ⟨0, hn⟩ (Nat.zero_mod _)) (iblk0 V c 0 ⟨0, hn⟩) (iblk0 V c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC1_of_A ⟨n + 1, hn⟩ h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC1_of_A ⟨n + 1, hn⟩ h0) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) (notC1_of ⟨n + 1, hn⟩ h1) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) (notC1_of ⟨n + 1, hn⟩ h1) (iblk0 V c 0 ⟨n + 1, hn⟩) (iblk0 V c 1 ⟨n + 1, hn⟩) (outsAt0 c n (Nat.lt_of_succ_lt hn)).2)

/-- `outsAt0` at a row's first point. -/
theorem outsAt0_A (c : Dev nD) (t : Fin cfg0.N) (h0 : t.val % 32 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (notC1_of_A t h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (notC1_of_A t h0) (iblk0 V c 0 t) (iblk0 V c 1 t)) := by
  obtain ⟨n, hn⟩ := t
  cases n with
  | zero => exact rfl
  | succ n => exact (dif_pos h0).trans rfl

/-- `outsAt0` at a row's inner point: over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) (notC0_of t h0) (notC1_of t h1) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (notC0_of t h0) (notC1_of t h1) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt0` at a row's last point: over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (notC0_of t h0) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (notC0_of t h0) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant that carries the scratch -/

/-- Before position `n`: at the first point the class invariant (the scratch at anything); afterwards the scratch
    at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOf0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOf0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOf0 (F := F) c) ∗ (∃ r, prngReg c r)) := by
  cases n with
  | zero => exact absurd rfl hz
  | succ n => rfl

/-! ## The pipeline's proof data -/

/-- The proof data of region 0 on core `c`: the arrays as the region finds them; after the body each input's
    buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Every window at the full share; nothing owed at any point. -/
theorem share0 (c : Dev nD) : ∀ w, (dat0 V c).share w = fullShare := (dat0 V c).share_full fun _ => rfl
theorem owed0 (c : Dev nD) : ∀ t, (dat0 V c).owed t = 0 := fun _ => rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the residue mod 32 says which case the point is
    in; the invariant hands the run the scratch (at anything before the very first point, else at what the point
    before left) and takes it back at this point's contents, the pieces covering it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  by_cases h0 : t.val % 32 = 0
  · rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2_A t ((hcond0_0 t).mpr h0) (notC1_of_A t h0)) (noFlush0_2_A t ((hcond0_0 t).mpr h0) (notC1_of_A t h0))]
    rw [outsAt0_A V c t h0]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (notC1_of_A t h0) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (notC1_of_A t h0) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (notC0_of t h0) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (notC0_of t h0) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (notC0_of t h0) (notC1_of t h1)) (noFlush0_2_B t (notC0_of t h0) (notC1_of t h1))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (notC0_of t h0) (notC1_of t h1) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand
end
-- ==== Proof.K.R1Frame.lean ====
/- REGION 1: the mean-subtraction kernel on its 64-point grid, at the contents `V` the TensorCore's buffers
   hold when the region is entered.

   At point `t` the body reads three blocks — rows `4096 t … 4096 t + 4095` of the eigenvector array (4096×32),
   the same rows of `x` (4096×256), and the whole 32×256 scaled-contribution array (one block, index constant in
   `t`) — and writes ONE block: rows `4096 t …` of the result. Each buffer is read and written whole, through the
   unit rectangle at offset zero. So the result buffer after the body is the canonical contents of one covering
   write whose payload is `k1_pay1` of the three blocks read: (x block) − (evector block, rounded) · (contribution
   block, rounded). The body also reads the result buffer before writing it; nothing depends on that value, so the
   buffer may hold anything beforehand.

   The proof data below says exactly this: every input buffer is left as found (so it holds its block at every
   point, whether or not the point fetched it — the contribution block is fetched once, and its index never moves),
   the output buffer is left at `out1_3` of the three blocks, the invariant is the untouched rest, nothing is
   owed. -/
import proofs.«109299_j87754771792653_2_alg».proof.Proof.Gen.Kernel.Launch
import proofs.«109299_j87754771792653_2_alg».proof.Proof.Gen.Kernel.Skeleton
import proofs.«109299_j87754771792653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! ## The blocks the windows show -/

/-- Block `t` of window `w`: the window's array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eigenvector window (0). For any proof data over `V`'s array whose body leaves the block where it is, the
    buffer the body is handed holds block `t`: a point that fetches puts it there; a point that does not has the
    block index of the point before, whose block was left in place. The window is never cut and never idle. -/
theorem before_evec_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The `x` window (1): the same statement, for the same reason. -/
theorem before_x_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaled-contribution window (2), fetched at the first point only: its block index is the same at every point,
    so at every later point the buffer still holds what the first fetch put there and every body since left in
    place, and that is block `t` (all its blocks are one). -/
theorem before_sc_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each buffer whole -/

abbrev rEvec : Rect S4096x32 := Rect.unit (s := S4096x32) ![0, 0] S4096x32.size inb_S4096x32_S4096x32_0_0
abbrev rX : Rect S4096x256 := Rect.unit (s := S4096x256) ![0, 0] S4096x256.size inb_S4096x256_S4096x256_0_0
abbrev rSc : Rect S32x256 := Rect.unit (s := S32x256) ![0, 0] S32x256.size inb_S32x256_S32x256_0_0

/-! ## What the body leaves in the result buffer -/

/-- The result buffer after the body, from the three blocks read (`x0` eigenvectors, `x1` rows of `x`, `x2` the
    scaled contribution): the contents one write through the whole rectangle leaves, its payload the kernel's
    value of what the three loads read. -/
def out1_3 (x0 : Vec F S4096x32 .f32) (x1 : Vec F S4096x256 .f32) (x2 : Vec F S32x256 .f32) : Vec F S4096x256 .f32 :=
  View.canon [⟨rX, k1_pay1 (View.ld x0 rEvec) (View.ld x2 rSc) (View.ld x1 rX)⟩]

/-- The one write covers the buffer: its rectangle tiles the shape. -/
theorem cover1_3 (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body's triple -/

set_option maxHeartbeats 1000000 in
/-- The body on whole memrefs — the three inputs' holding `x0`, `x1`, `x2`, the result's holding anything — runs to
    a continuation that is given the inputs unchanged and the result's memref at `out1_3 x0 x1 x2`. The function is
    its skeleton; the four loads and the store are executed symbolically; the read of the old result is dropped. -/
theorem sound_kernel1 (c : Dev nD) (E : Set ℕ) (i : grid1.Coords)
    (arg1 : Memref sig .tc .vmem S4096x32 .f32) (harg1 : arg1.IsWhole) (arg2 : Memref sig .tc .vmem S4096x256 .f32) (harg2 : arg2.IsWhole)
    (arg3 : Memref sig .tc .vmem S32x256 .f32) (harg3 : arg3.IsWhole) (arg4 : Memref sig .tc .vmem S4096x256 .f32) (harg4 : arg4.IsWhole)
    (x0 : Vec F S4096x32 .f32) (x1 : Vec F S4096x256 .f32) (x2 : Vec F S32x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mean_sub_kernel i arg1 harg1 arg2 harg2 arg3 harg3 arg4 harg4) K := by
  simp only [cc1__mean_sub_kernel_eq_skeleton]; unfold cc1__mean_sub_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Proof data of this pipeline on core `c`. Arrays: as the region finds them. After the body at point `t`: each
    input buffer at its block `t`, the result buffer at `out1_3` of the three blocks. Invariant: the rest of the
    core's scoped memory and the generator register, untouched. Full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input buffer holds its block when the body is called, at every point. -/
theorem before1_0 (c : Dev nD) (t : Fin cfg1.N) (d) : (dat1 V c).before 0 t d = iblk1 V c 0 t :=
  before_evec_of V (dat1 V c) (A_eq1 V c 0) (after1_0 V c) t d
theorem before1_1 (c : Dev nD) (t : Fin cfg1.N) (d) : (dat1 V c).before 1 t d = iblk1 V c 1 t :=
  before_x_of V (dat1 V c) (A_eq1 V c 1) (after1_1 V c) t d
theorem before1_2 (c : Dev nD) (t : Fin cfg1.N) (d) : (dat1 V c).before 2 t d = iblk1 V c 2 t :=
  before_sc_of V (dat1 V c) (A_eq1 V c 2) (after1_2 V c) t d

/-! ## The body obligation, at a generic point -/

/-- What the body is called with at point `t`: the invariant, the owed transfers, and each window's current
    buffer at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it must return: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the body's triple applies at those
    blocks; the invariant and the owed transfers are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the launch reads off the proof data -/

/-- The invariant is the class's at the first boundary, -/
theorem hin1 (c : Dev nD) : Pipeline.ΦA spec1 c ⊢ (dat1 V c).Φ 0 := Idealize.SL.BI.Entails.refl _
/-- and at the last. -/
theorem hout1 (c : Dev nD) : (dat1 V c).Φ (Fin.last cfg1.N) ⊢ Pipeline.ΦA spec1 c := Idealize.SL.BI.Entails.refl _
/-- Every window is held at the full share. -/
theorem share1 (c : Dev nD) : ∀ w, (dat1 V c).share w = fullShare := (dat1 V c).share_full fun _ => rfl
/-- No transfer is owed at any boundary. -/
theorem owed1 (c : Dev nD) : ∀ t, (dat1 V c).owed t = 0 := fun _ => rfl

/-! ## The value the body leaves, in closed form -/

/-- The offsets of the whole-buffer rectangles are zero. -/
theorem off_zero : (![0, 0] : Fin 2 → Nat) = fun _ => 0 := funext fun a => by fin_cases a <;> rfl

/-- One write through the whole rectangle leaves its payload, and a load through the whole rectangle reads the
    buffer: the result buffer after the body is the kernel's value of the three blocks themselves. -/
theorem out1_3_eq (x0 : Vec F S4096x32 .f32) (x1 : Vec F S4096x256 .f32) (x2 : Vec F S32x256 .f32) :
    out1_3 x0 x1 x2 = k1_pay1 x0 x2 x1 := by
  unfold out1_3
  rw [View.canon_unit_zero off_zero]
  simp only [View.ld_unit_zero (S := S4096x32) off_zero, View.ld_unit_zero (S := S4096x256) off_zero,
    View.ld_unit_zero (S := S32x256) off_zero]

end Cert.Kernel.Hand

end
-- ==== Proof.K.Run.lean ====
/- The launch of the program's two kernel regions and two stretches of host operations, as one run.
   The buffer contents at each boundary are a fold from the launch memory: a region changes only its windows'
   arrays (to what its write-backs leave), a host stretch applies its operations. From that fold: every weakly fair
   execution terminates without a fault, each unscoped buffer ends at the fold's last valuation, and no step of the
   fold touches an argument. -/
import proofs.«109299_j87754771792653_2_alg».proof.Proof.K.R0Frame
import proofs.«109299_j87754771792653_2_alg».proof.Proof.K.R1Frame
import proofs.«109299_j87754771792653_2_alg».proof.Proof.Gen.Kernel.Launch
import proofs.«109299_j87754771792653_2_alg».proof.Proof.Gen.Kernel.Skeleton
import proofs.«109299_j87754771792653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the first host stretch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch: the program's end. -/
abbrev W4 : Dev nD → Valuation τ sig (Elt F) := fun c => StableHlo.after hostOps2 (W3 m ρ c)

/-! ## No step writes an argument -/

theorem W1_main_arg0 (c : Dev nD) : W1 m ρ c (Proc.devRef .tc main_arg0) = m ((c : Thread nD τ).loc main_arg0) :=
  ((W1_arr m ρ c 1).trans (((dat0 (V0 m ρ) c).arrAt_in 1 rfl _).trans (A_eq0 (V0 m ρ) c 1))).trans rfl
theorem W2_main_arg0 (c : Dev nD) : W2 m ρ c (Proc.devRef .tc main_arg0) = m ((c : Thread nD τ).loc main_arg0) :=
  (StableHlo.after_of_forall_not_mem (b := Proc.devRef .tc main_arg0) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg0 m ρ c)
theorem W3_main_arg0 (c : Dev nD) : W3 m ρ c (Proc.devRef .tc main_arg0) = m ((c : Thread nD τ).loc main_arg0) :=
  ((W3_arr m ρ c 1).trans (((dat1 (V2 m ρ) c).arrAt_in 1 rfl _).trans (A_eq1 (V2 m ρ) c 1))).trans (W2_main_arg0 m ρ c)
theorem W4_main_arg0 (c : Dev nD) : W4 m ρ c (Proc.devRef .tc main_arg0) = m ((c : Thread nD τ).loc main_arg0) :=
  (StableHlo.after_of_forall_not_mem (b := Proc.devRef .tc main_arg0) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg0 m ρ c)

theorem W1_main_arg1 (c : Dev nD) : W1 m ρ c (Proc.devRef .tc main_arg1) = m ((c : Thread nD τ).loc main_arg1) :=
  ((W1_arr m ρ c 0).trans (((dat0 (V0 m ρ) c).arrAt_in 0 rfl _).trans (A_eq0 (V0 m ρ) c 0))).trans rfl
theorem W2_main_arg1 (c : Dev nD) : W2 m ρ c (Proc.devRef .tc main_arg1) = m ((c : Thread nD τ).loc main_arg1) :=
  (StableHlo.after_of_forall_not_mem (b := Proc.devRef .tc main_arg1) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg1 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W4_main_arg1 (c : Dev nD) : W4 m ρ c (Proc.devRef .tc main_arg1) = m ((c : Thread nD τ).loc main_arg1) :=
  (StableHlo.after_of_forall_not_mem (b := Proc.devRef .tc main_arg1) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (StableHlo.after_of_forall_not_mem (b := Proc.devRef .tc main_arg2) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (StableHlo.after_of_forall_not_mem (b := Proc.devRef .tc main_arg2) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg2 m ρ c)

theorem W1_main_arg3 (c : Dev nD) : W1 m ρ c (Proc.devRef .tc main_arg3) = m ((c : Thread nD τ).loc main_arg3) :=
  (W1_of_ne m ρ c main_arg3 (by decide)).trans rfl
theorem W2_main_arg3 (c : Dev nD) : W2 m ρ c (Proc.devRef .tc main_arg3) = m ((c : Thread nD τ).loc main_arg3) :=
  (StableHlo.after_of_forall_not_mem (b := Proc.devRef .tc main_arg3) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (StableHlo.after_of_forall_not_mem (b := Proc.devRef .tc main_arg3) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg3 m ρ c)

theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  (StableHlo.after_of_forall_not_mem (b := Proc.devRef .tc main_arg4) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (StableHlo.after_of_forall_not_mem (b := Proc.devRef .tc main_arg4) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (StableHlo.after_of_forall_not_mem (b := Proc.devRef .tc main_arg5) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (StableHlo.after_of_forall_not_mem (b := Proc.devRef .tc main_arg5) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg5 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`. Its
    arrays are split out of the unscoped buffers and put back at what the write-backs leave; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      (share0 (V0 m ρ) c) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) (share0 (V0 m ρ) c)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      (share1 (V2 m ρ) c) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) (share1 (V2 m ρ) c)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- Every weakly fair execution from `m` with zero counters terminates, nothing faulting, and every unscoped buffer of
    every core ends at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KI.R0Defs.lean ====
/- Region 0 (the contribution kernel, grid 2 x 32): what its three control cases share. The blocks of its
   windows read off the entry contents V; the two branch conditions in closed form over the 64 points
   (the first holds iff t % 32 = 0, the second iff t % 32 = 31); where the output window 2 is idle and
   where it is live; the staging memrefs at a point; the accumulator scratch as a memref; and the class
   invariant with the scratch split off from the other scoped buffers. -/
import proofs.«109299_j87754771792653_2_alg».proof.Proof.Gen.KernelIdeal.Launch
import proofs.«109299_j87754771792653_2_alg».proof.Proof.Gen.KernelIdeal.Skeleton
import proofs.«109299_j87754771792653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The evectors window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the x window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (is the inner coordinate 0?), from the grid coordinates. -/
abbrev cond0_0 (i : grid0.Coords) : Prop := (Scalar.cmpi .ne (Scalar.extui (Scalar.cmpi .eq (BitVec.ofNat 32 (i 1).val) 0#32)) 0#32) = 1#1
/-- It holds at the first point of each row. -/
theorem hcond0_0 : ∀ t : Fin cfg0.N, cond0_0 (grid0.coords t) ↔ t.val % 32 = 0 :=
  (by decide +kernel : ∀ t : Fin grid0.N, cond0_0 (grid0.coords t) ↔ t.val % 32 = 0)

/-- The second conditional's condition (is the inner coordinate 31?). -/
abbrev cond0_1 (i : grid0.Coords) : Prop := k0_cond2 i = 1#1
/-- It holds at the last point of each row. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a row's first point the output is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a row's inner points likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a row's last point the output is live: the body stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x32x256 .f32 := (Memref.whole cc0_stg2_0 : Memref sig .tc .vmem S1x32x256 .f32).view
/-- Each window's current staging memref at point `t`, and its wholeness. -/
abbrev ms0_0 (t : Fin cfg0.N) : Memref sig .tc .vmem S4096x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256 .f32 := win0_2.stage (cfg0.slots t 2)
abbrev hs0_2 (t : Fin cfg0.N) : (ms0_2 t).IsWhole := hstage0_2 ((cfg0.slots t 2).cast nbuf0_2)
/-- The accumulator scratch: a whole scoped buffer of the kernel's own, passed beside the windows. -/
abbrev scM0_0 : Memref sig .tc .vmem S32x256 .f32 := Memref.whole cc0_scratch0
/-- The scratch as a view: what it holds is stated through it. -/
abbrev VS0_0 : View sig .tc .vmem S32x256 .f32 := scM0_0.view

/-- The other scoped buffers of the core (region 1's staging buffers), each at some contents: they pass through
    region 0 untouched. -/
abbrev restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents, then the other scoped buffers,
    then the generator register. -/
theorem PhiA0_eq (c : Dev nD) :
    (Pipeline.ΦA spec0 c : sProp 𝕄)
      = iprop(iprop((∃ d, owns (c : Thread nD τ) scM0_0 fullShare d) ∗ restOf0 (F := F) c) ∗ (∃ r, prngReg c r)) := by
  unfold Pipeline.ΦA; rw [scopedRest0_eq]; simp only [scM0_0, owns_whole]; try rfl

end Cert.KernelIdeal.Hand
end
-- ==== Proof.KI.R0RunA.lean ====
/- Region 0, case A (a row's first point: the first conditional taken, the second not): the whole body run
   once. The scratch is taken at any contents; the body overwrites it with zeros and then with the first
   partial product added to them; the output buffer is not touched and is handed back as found. The pieces the
   scratch ends with are the witness the run finds. -/
import proofs.«109299_j87754771792653_2_alg».proof.Proof.KI.R0Defs

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case A leaves in the output buffer (none) and in the scratch, with the body's triple on whole
    memrefs: inputs at `x0`, `x1`; output at `xi2`, handed back untouched; scratch at anything. -/
noncomputable def kernelRun0_A (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) :
    Σ' (L2 : List (View.Piece (Elt F) S1x32x256 .f32)), { LS0 : List (View.Piece (Elt F) S32x256 .f32) //
      ∀ (xi2 : Vec F S1x32x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨[], ?_, fun xi2 E K => ?run⟩
  case run =>
    simp only [cc0__contribute_kernel_eq_skeleton]; unfold cc0__contribute_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand
end
-- ==== Proof.KI.R0RunB.lean ====
/- Region 0, case B (a row's inner points: neither conditional taken): the whole body run once. The scratch
   is taken at what the point before left; the body adds this point's partial product to it; the output buffer is
   not touched and is handed back as found. -/
import proofs.«109299_j87754771792653_2_alg».proof.Proof.KI.R0RunA

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case B leaves in the output buffer (none) and in the scratch, with the body's triple on whole
    memrefs: inputs at `x0`, `x1`; output at `xi2`, handed back untouched; scratch at `xs0`. -/
noncomputable def kernelRun0_B (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) :
    Σ' (L2 : List (View.Piece (Elt F) S1x32x256 .f32)), { LS0 : List (View.Piece (Elt F) S32x256 .f32) //
      ∀ (xi2 : Vec F S1x32x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨[], ?_, fun xi2 E K => ?run⟩
  case run =>
    simp only [cc0__contribute_kernel_eq_skeleton]; unfold cc0__contribute_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand
end
-- ==== Proof.KI.R0RunC.lean ====
/- Region 0, case C (a row's last point: the first conditional not taken, the second taken): the whole body
   run once. The scratch is taken at what the point before left; the body adds this point's partial product to
   it, then stores the scratch, reshaped, over the whole output buffer, which it takes at any contents. -/
import proofs.«109299_j87754771792653_2_alg».proof.Proof.KI.R0RunB

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

set_option maxHeartbeats 1000000 in
/-- The pieces case C leaves in the output buffer and in the scratch, with the body's triple on whole memrefs:
    inputs at `x0`, `x1`; output at anything; scratch at `xs0`. -/
noncomputable def kernelRun0_C (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) :
    Σ' (L2 : List (View.Piece (Elt F) S1x32x256 .f32)), { LS0 : List (View.Piece (Elt F) S32x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__contribute_kernel i arg2 harg2 arg3 harg3 arg4 harg4 arg5 harg5) K } := by
  refine ⟨?_, ?_, fun E K => ?run⟩
  case run =>
    simp only [cc0__contribute_kernel_eq_skeleton]; unfold cc0__contribute_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand
end
-- ==== Proof.KI.R0Frame.lean ====
/- Region 0 (the contribution kernel): the frame half. Per case, what the run's pieces leave in the
   output buffer and in the accumulator scratch, read back over junk, and that the pieces cover the buffer;
   the pair (output buffer, scratch) after each of the 64 points, by recursion on the point (a row's first
   point restarts the scratch, an inner point adds to what the point before left, a row's last point also
   stores the output); the invariant that carries the scratch from point to point; the proof data; the body
   obligation; and the invariant's two ends. Everything is stated at the entry contents V. -/
import proofs.«109299_j87754771792653_2_alg».proof.Proof.KI.R0RunC

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! ## The conditions at a point, from its residue mod 32 -/

theorem notC1_of_A (t : Fin cfg0.N) (h0 : t.val % 32 = 0) : ¬cond0_1 (grid0.coords t) :=
  fun h => by have h' := (hcond0_1 t).mp h; omega
theorem notC0_of (t : Fin cfg0.N) (h0 : ¬t.val % 32 = 0) : ¬cond0_0 (grid0.coords t) :=
  fun h => h0 ((hcond0_0 t).mp h)
theorem notC1_of (t : Fin cfg0.N) (h1 : ¬t.val % 32 = 31) : ¬cond0_1 (grid0.coords t) :=
  fun h => h1 ((hcond0_1 t).mp h)

/-! ## What each case leaves -/

/-- Case A stores nothing into the output buffer: no pieces; a placeholder nothing consults. -/
def out0_A_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) : Vec F S1x32x256 .f32 :=
  VO0_2.read (Elt F) (VO0_2.writes (Elt F) VO0_2.junk (kernelRun0_A c i arg2 harg2 arg3 harg3 arg4 harg4 arg5 harg5 hc0 hc1 x0 x1).1)

/-- Case A's pieces for the scratch cover it. -/
theorem scover0_A_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) (y : S32x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S32x256.size (by sl_kernel_rfl) y

/-- What case A leaves in the scratch: its pieces read back over junk. -/
def sout0_A_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i)
    (x0 : Vec F S4096x32 .f32) (x1 : Vec F S4096x256 .f32) : Vec F S32x256 .f32 :=
  VS0_0.read (Elt F) (VS0_0.writes (Elt F) VS0_0.junk (kernelRun0_A c i arg2 harg2 arg3 harg3 arg4 harg4 arg5 harg5 hc0 hc1 x0 x1).2.1)

/-- Case B stores nothing into the output buffer either. -/
def out0_B_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) : Vec F S1x32x256 .f32 :=
  VO0_2.read (Elt F) (VO0_2.writes (Elt F) VO0_2.junk (kernelRun0_B c i arg2 harg2 arg3 harg3 arg4 harg4 arg5 harg5 hc0 hc1 x0 x1 xs0).1)

/-- Case B's pieces for the scratch cover it. -/
theorem scover0_B_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) (y : S32x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S32x256.size (by sl_kernel_rfl) y

/-- What case B leaves in the scratch. -/
def sout0_B_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i)
    (x0 : Vec F S4096x32 .f32) (x1 : Vec F S4096x256 .f32) (xs0 : Vec F S32x256 .f32) : Vec F S32x256 .f32 :=
  VS0_0.read (Elt F) (VS0_0.writes (Elt F) VS0_0.junk (kernelRun0_B c i arg2 harg2 arg3 harg3 arg4 harg4 arg5 harg5 hc0 hc1 x0 x1 xs0).2.1)

/-- Case C's one store into the output buffer covers it. -/
theorem cover0_C_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) (y : S1x32x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x32x256.size (by sl_kernel_rfl) y

/-- What case C leaves in the output buffer. -/
def out0_C_2 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) : Vec F S1x32x256 .f32 :=
  VO0_2.read (Elt F) (VO0_2.writes (Elt F) VO0_2.junk (kernelRun0_C c i arg2 harg2 arg3 harg3 arg4 harg4 arg5 harg5 hc0 hc1 x0 x1 xs0).1)

/-- Case C's pieces for the scratch cover it. -/
theorem scover0_C_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) (y : S32x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S32x256.size (by sl_kernel_rfl) y

/-- What case C leaves in the scratch. -/
def sout0_C_0 (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i)
    (x0 : Vec F S4096x32 .f32) (x1 : Vec F S4096x256 .f32) (xs0 : Vec F S32x256 .f32) : Vec F S32x256 .f32 :=
  VS0_0.read (Elt F) (VS0_0.writes (Elt F) VS0_0.junk (kernelRun0_C c i arg2 harg2 arg3 harg3 arg4 harg4 arg5 harg5 hc0 hc1 x0 x1 xs0).2.1)

/-! ## What the output buffer and the scratch hold after each point -/

/-- The pair (output buffer, scratch) after the body at position `n`: the case the residue of `n` mod 32
    selects, run at the point's memrefs and input blocks, over the scratch the point before left. -/
def outsAt0 (c : Dev nD) : (n : ℕ) → n < cfg0.N → Vec F S1x32x256 .f32 × Vec F S32x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC1_of_A ⟨0, hn⟩ (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC1_of_A ⟨0, hn⟩ (Nat.zero_mod _)) (iblk0 V c 0 ⟨0, hn⟩) (iblk0 V c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC1_of_A ⟨n + 1, hn⟩ h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC1_of_A ⟨n + 1, hn⟩ h0) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) (notC1_of ⟨n + 1, hn⟩ h1) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (notC0_of ⟨n + 1, hn⟩ h0) (notC1_of ⟨n + 1, hn⟩ h1) (iblk0 V c 0 ⟨n + 1, hn⟩) (iblk0 V c 1 ⟨n + 1, hn⟩) (outsAt0 c n (Nat.lt_of_succ_lt hn)).2)

/-- `outsAt0` at a row's first point. -/
theorem outsAt0_A (c : Dev nD) (t : Fin cfg0.N) (h0 : t.val % 32 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (notC1_of_A t h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (notC1_of_A t h0) (iblk0 V c 0 t) (iblk0 V c 1 t)) := by
  obtain ⟨n, hn⟩ := t
  cases n with
  | zero => exact rfl
  | succ n => exact (dif_pos h0).trans rfl

/-- `outsAt0` at a row's inner point: over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) (notC0_of t h0) (notC1_of t h1) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (notC0_of t h0) (notC1_of t h1) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt0` at a row's last point: over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (notC0_of t h0) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (notC0_of t h0) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant that carries the scratch -/

/-- Before position `n`: at the first point the class invariant (the scratch at anything); afterwards the scratch
    at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOf0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restOf0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restOf0 (F := F) c) ∗ (∃ r, prngReg c r)) := by
  cases n with
  | zero => exact absurd rfl hz
  | succ n => rfl

/-! ## The pipeline's proof data -/

/-- The proof data of region 0 on core `c`: the arrays as the region finds them; after the body each input's
    buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Every window at the full share; nothing owed at any point. -/
theorem share0 (c : Dev nD) : ∀ w, (dat0 V c).share w = fullShare := (dat0 V c).share_full fun _ => rfl
theorem owed0 (c : Dev nD) : ∀ t, (dat0 V c).owed t = 0 := fun _ => rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the residue mod 32 says which case the point is
    in; the invariant hands the run the scratch (at anything before the very first point, else at what the point
    before left) and takes it back at this point's contents, the pieces covering it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  by_cases h0 : t.val % 32 = 0
  · rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2_A t ((hcond0_0 t).mpr h0) (notC1_of_A t h0)) (noFlush0_2_A t ((hcond0_0 t).mpr h0) (notC1_of_A t h0))]
    rw [outsAt0_A V c t h0]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (notC1_of_A t h0) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (notC1_of_A t h0) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (notC0_of t h0) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (notC0_of t h0) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (notC0_of t h0) (notC1_of t h1)) (noFlush0_2_B t (notC0_of t h0) (notC1_of t h1))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (notC0_of t h0) (notC1_of t h1) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand
end
-- ==== Proof.KI.R1Frame.lean ====
/- REGION 1: the mean-subtraction kernel on its 64-point grid, at the contents `V` the TensorCore's buffers
   hold when the region is entered.

   At point `t` the body reads three blocks — rows `4096 t … 4096 t + 4095` of the eigenvector array (4096×32),
   the same rows of `x` (4096×256), and the whole 32×256 scaled-contribution array (one block, index constant in
   `t`) — and writes ONE block: rows `4096 t …` of the result. Each buffer is read and written whole, through the
   unit rectangle at offset zero. So the result buffer after the body is the canonical contents of one covering
   write whose payload is `k1_pay1` of the three blocks read: (x block) − (evector block, rounded) · (contribution
   block, rounded). The body also reads the result buffer before writing it; nothing depends on that value, so the
   buffer may hold anything beforehand.

   The proof data below says exactly this: every input buffer is left as found (so it holds its block at every
   point, whether or not the point fetched it — the contribution block is fetched once, and its index never moves),
   the output buffer is left at `out1_3` of the three blocks, the invariant is the untouched rest, nothing is
   owed. -/
import proofs.«109299_j87754771792653_2_alg».proof.Proof.Gen.KernelIdeal.Launch
import proofs.«109299_j87754771792653_2_alg».proof.Proof.Gen.KernelIdeal.Skeleton
import proofs.«109299_j87754771792653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! ## The blocks the windows show -/

/-- Block `t` of window `w`: the window's array, as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eigenvector window (0). For any proof data over `V`'s array whose body leaves the block where it is, the
    buffer the body is handed holds block `t`: a point that fetches puts it there; a point that does not has the
    block index of the point before, whose block was left in place. The window is never cut and never idle. -/
theorem before_evec_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The `x` window (1): the same statement, for the same reason. -/
theorem before_x_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaled-contribution window (2), fetched at the first point only: its block index is the same at every point,
    so at every later point the buffer still holds what the first fetch put there and every body since left in
    place, and that is block `t` (all its blocks are one). -/
theorem before_sc_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each buffer whole -/

abbrev rEvec : Rect S4096x32 := Rect.unit (s := S4096x32) ![0, 0] S4096x32.size inb_S4096x32_S4096x32_0_0
abbrev rX : Rect S4096x256 := Rect.unit (s := S4096x256) ![0, 0] S4096x256.size inb_S4096x256_S4096x256_0_0
abbrev rSc : Rect S32x256 := Rect.unit (s := S32x256) ![0, 0] S32x256.size inb_S32x256_S32x256_0_0

/-! ## What the body leaves in the result buffer -/

/-- The result buffer after the body, from the three blocks read (`x0` eigenvectors, `x1` rows of `x`, `x2` the
    scaled contribution): the contents one write through the whole rectangle leaves, its payload the kernel's
    value of what the three loads read. -/
def out1_3 (x0 : Vec F S4096x32 .f32) (x1 : Vec F S4096x256 .f32) (x2 : Vec F S32x256 .f32) : Vec F S4096x256 .f32 :=
  View.canon [⟨rX, k1_pay1 (View.ld x0 rEvec) (View.ld x2 rSc) (View.ld x1 rX)⟩]

/-- The one write covers the buffer: its rectangle tiles the shape. -/
theorem cover1_3 (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

/-! ## The body's triple -/

set_option maxHeartbeats 1000000 in
/-- The body on whole memrefs — the three inputs' holding `x0`, `x1`, `x2`, the result's holding anything — runs to
    a continuation that is given the inputs unchanged and the result's memref at `out1_3 x0 x1 x2`. The function is
    its skeleton; the four loads and the store are executed symbolically; the read of the old result is dropped. -/
theorem sound_kernel1 (c : Dev nD) (E : Set ℕ) (i : grid1.Coords)
    (arg1 : Memref sig .tc .vmem S4096x32 .f32) (harg1 : arg1.IsWhole) (arg2 : Memref sig .tc .vmem S4096x256 .f32) (harg2 : arg2.IsWhole)
    (arg3 : Memref sig .tc .vmem S32x256 .f32) (harg3 : arg3.IsWhole) (arg4 : Memref sig .tc .vmem S4096x256 .f32) (harg4 : arg4.IsWhole)
    (x0 : Vec F S4096x32 .f32) (x1 : Vec F S4096x256 .f32) (x2 : Vec F S32x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mean_sub_kernel i arg1 harg1 arg2 harg2 arg3 harg3 arg4 harg4) K := by
  simp only [cc1__mean_sub_kernel_eq_skeleton]; unfold cc1__mean_sub_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Proof data of this pipeline on core `c`. Arrays: as the region finds them. After the body at point `t`: each
    input buffer at its block `t`, the result buffer at `out1_3` of the three blocks. Invariant: the rest of the
    core's scoped memory and the generator register, untouched. Full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input buffer holds its block when the body is called, at every point. -/
theorem before1_0 (c : Dev nD) (t : Fin cfg1.N) (d) : (dat1 V c).before 0 t d = iblk1 V c 0 t :=
  before_evec_of V (dat1 V c) (A_eq1 V c 0) (after1_0 V c) t d
theorem before1_1 (c : Dev nD) (t : Fin cfg1.N) (d) : (dat1 V c).before 1 t d = iblk1 V c 1 t :=
  before_x_of V (dat1 V c) (A_eq1 V c 1) (after1_1 V c) t d
theorem before1_2 (c : Dev nD) (t : Fin cfg1.N) (d) : (dat1 V c).before 2 t d = iblk1 V c 2 t :=
  before_sc_of V (dat1 V c) (A_eq1 V c 2) (after1_2 V c) t d

/-! ## The body obligation, at a generic point -/

/-- What the body is called with at point `t`: the invariant, the owed transfers, and each window's current
    buffer at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it must return: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the body's triple applies at those
    blocks; the invariant and the owed transfers are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## What the launch reads off the proof data -/

/-- The invariant is the class's at the first boundary, -/
theorem hin1 (c : Dev nD) : Pipeline.ΦA spec1 c ⊢ (dat1 V c).Φ 0 := Idealize.SL.BI.Entails.refl _
/-- and at the last. -/
theorem hout1 (c : Dev nD) : (dat1 V c).Φ (Fin.last cfg1.N) ⊢ Pipeline.ΦA spec1 c := Idealize.SL.BI.Entails.refl _
/-- Every window is held at the full share. -/
theorem share1 (c : Dev nD) : ∀ w, (dat1 V c).share w = fullShare := (dat1 V c).share_full fun _ => rfl
/-- No transfer is owed at any boundary. -/
theorem owed1 (c : Dev nD) : ∀ t, (dat1 V c).owed t = 0 := fun _ => rfl

/-! ## The value the body leaves, in closed form -/

/-- The offsets of the whole-buffer rectangles are zero. -/
theorem off_zero : (![0, 0] : Fin 2 → Nat) = fun _ => 0 := funext fun a => by fin_cases a <;> rfl

/-- One write through the whole rectangle leaves its payload, and a load through the whole rectangle reads the
    buffer: the result buffer after the body is the kernel's value of the three blocks themselves. -/
theorem out1_3_eq (x0 : Vec F S4096x32 .f32) (x1 : Vec F S4096x256 .f32) (x2 : Vec F S32x256 .f32) :
    out1_3 x0 x1 x2 = k1_pay1 x0 x2 x1 := by
  unfold out1_3
  rw [View.canon_unit_zero off_zero]
  simp only [View.ld_unit_zero (S := S4096x32) off_zero, View.ld_unit_zero (S := S4096x256) off_zero,
    View.ld_unit_zero (S := S32x256) off_zero]

end Cert.KernelIdeal.Hand

end
-- ==== Proof.KI.Run.lean ====
/- The launch of the program's two kernel regions and two stretches of host operations, as one run.
   The buffer contents at each boundary are a fold from the launch memory: a region changes only its windows'
   arrays (to what its write-backs leave), a host stretch applies its operations. From that fold: every weakly fair
   execution terminates without a fault, each unscoped buffer ends at the fold's last valuation, and no step of the
   fold touches an argument. -/
import proofs.«109299_j87754771792653_2_alg».proof.Proof.KI.R0Frame
import proofs.«109299_j87754771792653_2_alg».proof.Proof.KI.R1Frame
import proofs.«109299_j87754771792653_2_alg».proof.Proof.Gen.KernelIdeal.Launch
import proofs.«109299_j87754771792653_2_alg».proof.Proof.Gen.KernelIdeal.Skeleton
import proofs.«109299_j87754771792653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the first host stretch. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch: the program's end. -/
abbrev W4 : Dev nD → Valuation τ sig (Elt F) := fun c => StableHlo.after hostOps2 (W3 m ρ c)

/-! ## No step writes an argument -/

theorem W1_main_arg0 (c : Dev nD) : W1 m ρ c (Proc.devRef .tc main_arg0) = m ((c : Thread nD τ).loc main_arg0) :=
  ((W1_arr m ρ c 1).trans (((dat0 (V0 m ρ) c).arrAt_in 1 rfl _).trans (A_eq0 (V0 m ρ) c 1))).trans rfl
theorem W2_main_arg0 (c : Dev nD) : W2 m ρ c (Proc.devRef .tc main_arg0) = m ((c : Thread nD τ).loc main_arg0) :=
  (StableHlo.after_of_forall_not_mem (b := Proc.devRef .tc main_arg0) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg0 m ρ c)
theorem W3_main_arg0 (c : Dev nD) : W3 m ρ c (Proc.devRef .tc main_arg0) = m ((c : Thread nD τ).loc main_arg0) :=
  ((W3_arr m ρ c 1).trans (((dat1 (V2 m ρ) c).arrAt_in 1 rfl _).trans (A_eq1 (V2 m ρ) c 1))).trans (W2_main_arg0 m ρ c)
theorem W4_main_arg0 (c : Dev nD) : W4 m ρ c (Proc.devRef .tc main_arg0) = m ((c : Thread nD τ).loc main_arg0) :=
  (StableHlo.after_of_forall_not_mem (b := Proc.devRef .tc main_arg0) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg0 m ρ c)

theorem W1_main_arg1 (c : Dev nD) : W1 m ρ c (Proc.devRef .tc main_arg1) = m ((c : Thread nD τ).loc main_arg1) :=
  ((W1_arr m ρ c 0).trans (((dat0 (V0 m ρ) c).arrAt_in 0 rfl _).trans (A_eq0 (V0 m ρ) c 0))).trans rfl
theorem W2_main_arg1 (c : Dev nD) : W2 m ρ c (Proc.devRef .tc main_arg1) = m ((c : Thread nD τ).loc main_arg1) :=
  (StableHlo.after_of_forall_not_mem (b := Proc.devRef .tc main_arg1) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg1 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W4_main_arg1 (c : Dev nD) : W4 m ρ c (Proc.devRef .tc main_arg1) = m ((c : Thread nD τ).loc main_arg1) :=
  (StableHlo.after_of_forall_not_mem (b := Proc.devRef .tc main_arg1) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (StableHlo.after_of_forall_not_mem (b := Proc.devRef .tc main_arg2) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (StableHlo.after_of_forall_not_mem (b := Proc.devRef .tc main_arg2) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg2 m ρ c)

theorem W1_main_arg3 (c : Dev nD) : W1 m ρ c (Proc.devRef .tc main_arg3) = m ((c : Thread nD τ).loc main_arg3) :=
  (W1_of_ne m ρ c main_arg3 (by decide)).trans rfl
theorem W2_main_arg3 (c : Dev nD) : W2 m ρ c (Proc.devRef .tc main_arg3) = m ((c : Thread nD τ).loc main_arg3) :=
  (StableHlo.after_of_forall_not_mem (b := Proc.devRef .tc main_arg3) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (StableHlo.after_of_forall_not_mem (b := Proc.devRef .tc main_arg3) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg3 m ρ c)

theorem W1_main_arg4 (c : Dev nD) : W1 m ρ c (Proc.devRef .tc main_arg4) = m ((c : Thread nD τ).loc main_arg4) :=
  (W1_of_ne m ρ c main_arg4 (by decide)).trans rfl
theorem W2_main_arg4 (c : Dev nD) : W2 m ρ c (Proc.devRef .tc main_arg4) = m ((c : Thread nD τ).loc main_arg4) :=
  (StableHlo.after_of_forall_not_mem (b := Proc.devRef .tc main_arg4) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (StableHlo.after_of_forall_not_mem (b := Proc.devRef .tc main_arg4) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (StableHlo.after_of_forall_not_mem (b := Proc.devRef .tc main_arg5) hostOps1 (W1 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (StableHlo.after_of_forall_not_mem (b := Proc.devRef .tc main_arg5) hostOps2 (W3 m ρ c) (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_main_arg5 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`. Its
    arrays are split out of the unscoped buffers and put back at what the write-backs leave; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      (share0 (V0 m ρ) c) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) (share0 (V0 m ρ) c)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at what the write-backs leave; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      (share1 (V2 m ρ) c) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V2 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) (share1 (V2 m ρ) c)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub ops1_fresh (W1 m ρ)),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- Every weakly fair execution from `m` with zero counters terminates, nothing faulting, and every unscoped buffer of
    every core ends at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.KI.R1Value.lean ====
/- REGION 1's value, at the ideal instance (extended reals).

   The mean-subtraction pipeline writes, at point `t`, rows `4096 t … 4096 t + 4095` of its result. At the ideal
   instance the roundings to bf16 are the identity and the matmul into a zero accumulator is the plain sum, so the
   body's value at (r, c) of a block is  x(r, c) − ∑ₖ ev(r, k) · sc(k, c)  of the three blocks it read. The blocks
   of the eigenvector array and of `x` at point `t` are rows `4096 t + r` of their arrays, and the 32×256 block is
   the whole array; so what point `t` writes back is block `t` of ONE array-level function `G1` of the three
   arrays. Every point writes back and the 64 blocks tile the 262144 rows; hence the result array ends at `G1`. -/
import proofs.«109299_j87754771792653_2_alg».proof.Proof.KI.R1Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-- the centred array: each entry of x less its row of evectors times the 32x256 array's column -/
def G1 (X : S262144x256.Idx → EReal) (EV : S262144x32.Idx → EReal) (SC : S32x256.Idx → EReal) : S262144x256.Idx → EReal :=
  fun i => X i - ∑ k : Fin 32, EV (ix2 ⟨(i 0).val, (i 0).isLt⟩ k) * SC (ix2 k ⟨(i 1).val, (i 1).isLt⟩)

/-- The windows' block indices over the grid: the eigenvector, `x` and result windows are on block row `t`, column 0;
    the 32×256 window is on block (0, 0) at every point. Decided over the 64 points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of `x` at (r, c) is `x` at (4096 t + r, c). -/
theorem iblk_x_apply (c : Dev nD) (t : Fin cfg1.N) (y : S4096x256.Idx) (i : S262144x256.Idx)
    (h0 : (i 0).val = t.val * 4096 + (y 0).val) (h1 : (i 1).val = (y 1).val) :
    (iblk1 V c 1 t : Vec Ideal S4096x256 .f32) y = (V c main_arg0 : S262144x256.Idx → EReal) i := by
  obtain ⟨-, -, e0, e1, -, -, -, -⟩ := idx_facts1 t
  unfold iblk1
  rw [View.read_apply]
  show V c main_arg0 _ = V c main_arg0 _
  congr 1
  funext a
  apply Fin.ext
  match a with
  | ⟨0, _⟩ => show win1_1.index t 0 * 4096 + 1 * (y 0).val = (i 0).val; omega
  | ⟨1, _⟩ => show win1_1.index t 1 * 256 + 1 * (y 1).val = (i 1).val; omega

/-! ## The matmul's operand indices: output (r, c), contraction k ↦ (r, k) and (k, c) -/

theorem lhs1_0 (i : S4096x256.Idx) (q : dot_S4096x32_S32x256_S4096x256_1_0_0_1_n_n.contr.Idx) :
    (dot_S4096x32_S32x256_S4096x256_1_0_0_1_n_n.lhsIdx i q 0).val = (i 0).val := by
  unfold DotDims.lhsIdx
  rw [dif_neg (show ¬(0 : Fin S4096x32.rank) ∈ dot_S4096x32_S32x256_S4096x256_1_0_0_1_n_n.lhsBatch by decide), dif_pos (show (0 : Fin S4096x32.rank) ∈ dot_S4096x32_S32x256_S4096x256_1_0_0_1_n_n.lhsNonContracting by decide)]
  rfl
theorem lhs1_1 (i : S4096x256.Idx) (q : dot_S4096x32_S32x256_S4096x256_1_0_0_1_n_n.contr.Idx) :
    (dot_S4096x32_S32x256_S4096x256_1_0_0_1_n_n.lhsIdx i q 1).val = (q ⟨0, by decide⟩).val :=
  dot_S4096x32_S32x256_S4096x256_1_0_0_1_n_n.lhsIdx_val_of_single rfl i q
theorem rhs1_0 (i : S4096x256.Idx) (q : dot_S4096x32_S32x256_S4096x256_1_0_0_1_n_n.contr.Idx) :
    (dot_S4096x32_S32x256_S4096x256_1_0_0_1_n_n.rhsIdx i q 0).val = (q ⟨0, by decide⟩).val :=
  dot_S4096x32_S32x256_S4096x256_1_0_0_1_n_n.rhsIdx_val_of_single rfl i q
theorem rhs1_1 (i : S4096x256.Idx) (q : dot_S4096x32_S32x256_S4096x256_1_0_0_1_n_n.contr.Idx) :
    (dot_S4096x32_S32x256_S4096x256_1_0_0_1_n_n.rhsIdx i q 1).val = (i 1).val := by
  unfold DotDims.rhsIdx
  rw [dif_neg (show ¬(1 : Fin S32x256.rank) ∈ dot_S4096x32_S32x256_S4096x256_1_0_0_1_n_n.rhsBatch by decide), dif_pos (show (1 : Fin S32x256.rank) ∈ dot_S4096x32_S32x256_S4096x256_1_0_0_1_n_n.rhsNonContracting by decide)]
  rfl

/-- The body's value at (r, c), at the ideal instance: the roundings are the identity, the shape cast is onto the same
    shape, the accumulator is zero, and the contraction index is its one coordinate k < 32. -/
theorem centre_pay_apply (x0 : Vec Ideal S4096x32 .f32) (x2 : Vec Ideal S32x256 .f32) (x1 : Vec Ideal S4096x256 .f32) (y : S4096x256.Idx) :
    k1_pay1 (F := Ideal) x0 x2 x1 y = x1 y - ∑ k : Fin 32, x0 (ix2 ⟨(y 0).val, (y 0).isLt⟩ k) * x2 (ix2 k ⟨(y 1).val, (y 1).isLt⟩) := by
  unfold k1_pay1
  dsimp only
  rw [subf_apply]
  congr 1
  refine (Ideal.matmul_constant_zero_apply dot_S4096x32_S32x256_S4096x256_1_0_0_1_n_n none _ _ y).trans ?_
  rw [← Equiv.sum_comp (contrEquiv1 dot_S4096x32_S32x256_S4096x256_1_0_0_1_n_n 32 rfl rfl).symm]
  refine Finset.sum_congr rfl fun k _ => ?_
  have hk := contrEquiv1_symm_val dot_S4096x32_S32x256_S4096x256_1_0_0_1_n_n 32 rfl rfl k
  rw [truncf_apply, truncf_apply, shapeCast_self]
  have el : dot_S4096x32_S32x256_S4096x256_1_0_0_1_n_n.lhsIdx y ((contrEquiv1 dot_S4096x32_S32x256_S4096x256_1_0_0_1_n_n 32 rfl rfl).symm k) = ix2 ⟨(y 0).val, (y 0).isLt⟩ k := funext fun a => Fin.ext (by
    match a with
    | ⟨0, _⟩ => exact lhs1_0 _ _
    | ⟨1, _⟩ => exact (lhs1_1 _ _).trans hk)
  have er : dot_S4096x32_S32x256_S4096x256_1_0_0_1_n_n.rhsIdx y ((contrEquiv1 dot_S4096x32_S32x256_S4096x256_1_0_0_1_n_n 32 rfl rfl).symm k) = ix2 k ⟨(y 1).val, (y 1).isLt⟩ := funext fun a => Fin.ext (by
    match a with
    | ⟨0, _⟩ => exact (rhs1_0 _ _).trans hk
    | ⟨1, _⟩ => exact rhs1_1 _ _)
  rw [el, er]
  rfl

/-- Block `t` of the eigenvector array at (r, k) is the array at (4096 t + r, k). -/
theorem iblk_evec_apply (c : Dev nD) (t : Fin cfg1.N) (y : S4096x32.Idx) (i : S262144x32.Idx)
    (h0 : (i 0).val = t.val * 4096 + (y 0).val) (h1 : (i 1).val = (y 1).val) :
    (iblk1 V c 0 t : Vec Ideal S4096x32 .f32) y = (V c main_arg1 : S262144x32.Idx → EReal) i := by
  obtain ⟨e0, e1, -, -, -, -, -, -⟩ := idx_facts1 t
  unfold iblk1
  rw [View.read_apply]
  show V c main_arg1 _ = V c main_arg1 _
  congr 1
  funext a
  apply Fin.ext
  match a with
  | ⟨0, _⟩ => show win1_0.index t 0 * 4096 + 1 * (y 0).val = (i 0).val; omega
  | ⟨1, _⟩ => show win1_0.index t 1 * 32 + 1 * (y 1).val = (i 1).val; omega

/-- The 32×256 window's block is its whole array, at every point. -/
theorem iblk_sc_apply (c : Dev nD) (t : Fin cfg1.N) (y : S32x256.Idx) (i : S32x256.Idx)
    (h0 : (i 0).val = (y 0).val) (h1 : (i 1).val = (y 1).val) :
    (iblk1 V c 2 t : Vec Ideal S32x256 .f32) y = (V c main_v8 : S32x256.Idx → EReal) i := by
  obtain ⟨-, -, -, -, e0, e1, -, -⟩ := idx_facts1 t
  unfold iblk1
  rw [View.read_apply]
  show V c main_v8 _ = V c main_v8 _
  congr 1
  funext a
  apply Fin.ext
  match a with
  | ⟨0, _⟩ => show win1_2.index t 0 * 32 + 1 * (y 0).val = (i 0).val; omega
  | ⟨1, _⟩ => show win1_2.index t 1 * 256 + 1 * (y 1).val = (i 1).val; omega

/-- WHAT POINT `t` WRITES BACK is block `t` of `G1` of the three arrays: the body's value of the three blocks, each
    block read where the result's block says. -/
theorem flushed1_eq (c : Dev nD) (t : Fin cfg1.N) :
    (dat1 V c).flushed 3 t = ((cfg1.win 3).blk t).view.read (Elt Ideal) (G1 (V c main_arg0) (V c main_arg1) (V c main_v8)) := by
  show (cfg1.win 3).cut (grid1.coords t) ((dat1 V c).after 3 t) = _
  rw [after1_3, out1_3_eq]
  funext j
  obtain ⟨-, -, -, -, -, -, e0, e1⟩ := idx_facts1 t
  show k1_pay1 (F := Ideal) (iblk1 V c 0 t) (iblk1 V c 2 t) (iblk1 V c 1 t) j
      = G1 (V c main_arg0) (V c main_arg1) (V c main_v8) (((cfg1.win 3).blk t).view.emb j)
  have hi0 : ((((cfg1.win 3).blk t).view.emb j : S262144x256.Idx) 0).val = t.val * 4096 + ((j : S4096x256.Idx) 0).val := by
    show win1_3.index t 0 * 4096 + 1 * ((j : S4096x256.Idx) 0).val = _; omega
  have hi1 : ((((cfg1.win 3).blk t).view.emb j : S262144x256.Idx) 1).val = ((j : S4096x256.Idx) 1).val := by
    show win1_3.index t 1 * 256 + 1 * ((j : S4096x256.Idx) 1).val = _; omega
  refine (centre_pay_apply (iblk1 V c 0 t) (iblk1 V c 2 t) (iblk1 V c 1 t) j).trans ?_
  unfold G1
  refine congrArg₂ (· - ·) (iblk_x_apply V c t j _ hi0 hi1) ?_
  exact Finset.sum_congr rfl fun k _ =>
    congrArg₂ (· * ·) (iblk_evec_apply V c t _ _ hi0 rfl) (iblk_sc_apply V c t _ _ rfl hi1)

/-- An index of the result array is in point `t`'s block iff each coordinate is in the block's range on its axis. -/
theorem mem_blk1 (t : Fin cfg1.N) (i : S262144x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v9).slice (win1_3.rect t)).set ↔ _
  rw [View.set_slice_whole, Rect.mem_set_unit]
  exact Iff.rfl

/-- Row `r` of the result is in the block of point `r / 4096`, and every point writes back. -/
theorem cover1 (i : S262144x256.Idx) : ∃ t : Fin cfg1.N, (cfg1.win 3).flush t = true ∧ i ∈ ((cfg1.win 3).blk t).view.set := by
  have hN : cfg1.N = 64 := N_1
  have h0 : (i 0).val < 262144 := (i 0).isLt
  have h1 : (i 1).val < 256 := (i 1).isLt
  have ht : (i 0).val / 4096 < cfg1.N := lt_of_lt_of_eq (by omega : (i 0).val / 4096 < 64) hN.symm
  refine ⟨⟨(i 0).val / 4096, ht⟩, flush1_3 _, ?_⟩
  rw [mem_blk1]
  obtain ⟨-, -, -, -, -, -, e0, e1⟩ := idx_facts1 ⟨(i 0).val / 4096, ht⟩
  intro a
  match a with
  | ⟨0, _⟩ =>
    show win1_3.index ⟨(i 0).val / 4096, ht⟩ 0 * 4096 ≤ (i 0).val ∧ (i 0).val < win1_3.index ⟨(i 0).val / 4096, ht⟩ 0 * 4096 + 4096
    rw [e0]
    show (i 0).val / 4096 * 4096 ≤ (i 0).val ∧ (i 0).val < (i 0).val / 4096 * 4096 + 4096
    omega
  | ⟨1, _⟩ =>
    show win1_3.index ⟨(i 0).val / 4096, ht⟩ 1 * 256 ≤ (i 1).val ∧ (i 1).val < win1_3.index ⟨(i 0).val / 4096, ht⟩ 1 * 256 + 256
    rw [e1]
    omega

/-- THE RESULT ARRAY after the region: the centred array of the three arrays the region finds. -/
theorem final1 (c : Dev nD) : (dat1 V c).arrAt 3 cfg1.N = G1 (V c main_arg0) (V c main_arg1) (V c main_v8) :=
  (dat1 V c).arrAt_eq_of_cover 3 (G1 (V c main_arg0) (V c main_arg1) (V c main_v8)) (fun t _ => flushed1_eq V c t) cover1

end Cert.KernelIdeal.Hand

end
-- ==== Proof.KI.R0Pieces.lean ====
/- Region 0: the values of what the three runs found. A row's first point leaves in the scratch the first
   partial product over the zero block; any other point adds its partial product to what the point before left;
   a row's last point stores that scratch, reshaped, as the output block. -/
import proofs.«109299_j87754771792653_2_alg».proof.Proof.KI.R0Frame
import Idealize.ShloMosaic.Lib.Pipeline.Value

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves in the scratch the first partial product added to the zero block. -/
theorem sout_A (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : cond0_0 i) (hc1 : ¬cond0_1 i) (x0 : Vec F S4096x32 .f32) (x1 : Vec F S4096x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only

  sl_unfold_words

  rw [View.canon_cons_unit_zero (S := S32x256) hz2, View.readCov_unit_zero (S := S32x256) _ hz2]
  simp only [View.readAt_eq_ld, harg2.read_unread, harg3.read_unread, View.ld_unit_zero (S := S4096x32) hz2, View.ld_unit_zero (S := S4096x256) hz2]

/-- Case B leaves in the scratch this point's partial product added to what it held. -/
theorem sout_B (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : ¬cond0_1 i) (x0 : Vec F S4096x32 .f32) (x1 : Vec F S4096x256 .f32) (xs0 : Vec F S32x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only

  sl_unfold_words
  rw [View.canon_unit_zero (S := S32x256) hz2]
  simp only [View.readAt_eq_ld, harg2.read_unread, harg3.read_unread, harg5.read_unread, View.ld_unit_zero (S := S4096x32) hz2, View.ld_unit_zero (S := S4096x256) hz2, View.ld_unit_zero (S := S32x256) hz2]

/-- Case C leaves the same in the scratch, -/
theorem sout_C (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i) (x0 : Vec F S4096x32 .f32) (x1 : Vec F S4096x256 .f32) (xs0 : Vec F S32x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only

  sl_unfold_words
  rw [View.canon_unit_zero (S := S32x256) hz2]
  simp only [View.readAt_eq_ld, harg2.read_unread, harg3.read_unread, harg5.read_unread, View.ld_unit_zero (S := S4096x32) hz2, View.ld_unit_zero (S := S4096x256) hz2, View.ld_unit_zero (S := S32x256) hz2]

/-- and in the output buffer that scratch, reshaped. -/
theorem out_C (c : Dev nD) (i : grid0.Coords) (arg2 : Memref sig .tc .vmem S4096x32 .f32) (harg2 : arg2.IsWhole) (arg3 : Memref sig .tc .vmem S4096x256 .f32) (harg3 : arg3.IsWhole) (arg4 : Memref sig .tc .vmem S1x32x256 .f32) (harg4 : arg4.IsWhole) (arg5 : Memref sig .tc .vmem S32x256 .f32) (harg5 : arg5.IsWhole) (hc0 : ¬cond0_0 i) (hc1 : cond0_1 i) (x0 : Vec F S4096x32 .f32) (x1 : Vec F S4096x256 .f32) (xs0 : Vec F S32x256 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only

  sl_unfold_words

  rw [View.canon_unit_zero (S := S1x32x256) hz3, View.readCov_unit_zero (S := S32x256) _ hz2]
  simp only [View.readAt_eq_ld, harg2.read_unread, harg3.read_unread, harg5.read_unread, View.ld_unit_zero (S := S4096x32) hz2, View.ld_unit_zero (S := S4096x256) hz2, View.ld_unit_zero (S := S32x256) hz2]

/-! ## The three value equations, point by point -/

/-- At a row's first point the scratch restarts: the first partial product over the zero block. -/
theorem scratch_first (c : Dev nD) (t : Fin cfg0.N) (h : t.val % 32 = 0) :
    (outsAt0 V c t.val t.isLt).2 = k0_pay2 (iblk0 V c 0 t) (iblk0 V c 1 t) (k0_pay1 (F := F)) := by
  rw [outsAt0_A V c t h]
  dsimp only
  exact sout_A (F := F) ..

/-- At any other point it adds this point's partial product to what the point before left. -/
theorem scratch_next (c : Dev nD) (t : Fin cfg0.N) (h : t.val % 32 ≠ 0) :
    (outsAt0 V c t.val t.isLt).2 = k0_pay2 (iblk0 V c 0 t) (iblk0 V c 1 t) (outsAt0 V c (t.val - 1) (Nat.lt_of_le_of_lt (Nat.sub_le _ _) t.isLt)).2 := by
  by_cases h1 : t.val % 32 = 31
  · rw [outsAt0_C V c t h h1]
    dsimp only
    exact sout_C (F := F) ..
  · rw [outsAt0_B V c t h h1]
    dsimp only
    exact sout_B (F := F) ..

/-- At a row's last point the output buffer is the scratch the point leaves, reshaped. -/
theorem out_last (c : Dev nD) (t : Fin cfg0.N) (h : t.val % 32 = 31) :
    (outsAt0 V c t.val t.isLt).1 = k0_pay3 (outsAt0 V c t.val t.isLt).2 := by
  have h0 : ¬t.val % 32 = 0 := by omega
  rw [outsAt0_C V c t h0 h]
  dsimp only
  rw [out_C, sout_C]

end Cert.KernelIdeal.Hand
end
-- ==== Proof.KIV.R0Pay.lean ====
/- Region 0's stored values at an index, on the extended reals.
   The accumulator's new contents at entry (e, h) are its old entry plus the tile's contribution
   ∑ r, evectors_tile (r, e) · x_tile (r, h) (the tile's 4096 rows contracted); the reset value is zero everywhere;
   the value copied to the output at the end of a row is the accumulator, with a leading unit axis. -/
import proofs.«109299_j87754771792653_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

/-- The tile's left operand index at output entry `i` and contracted row `r`: row `r`, column `i 0`. -/
abbrev tileL (i : S32x256.Idx) (r : Fin 4096) : S4096x32.Idx := fun a => match a with
  | ⟨0, _⟩ => ⟨r.val, r.isLt⟩
  | ⟨1, _⟩ => ⟨(i 0).val, (i 0).isLt⟩
/-- The tile's right operand index: row `r`, column `i 1`. -/
abbrev tileR (i : S32x256.Idx) (r : Fin 4096) : S4096x256.Idx := fun a => match a with
  | ⟨0, _⟩ => ⟨r.val, r.isLt⟩
  | ⟨1, _⟩ => ⟨(i 1).val, (i 1).isLt⟩

theorem tile_lhs0 (i : S32x256.Idx) (q : dot_S4096x32_S4096x256_S32x256_0_0_1_1_n_n.contr.Idx) :
    (dot_S4096x32_S4096x256_S32x256_0_0_1_1_n_n.lhsIdx i q 0).val = (q ⟨0, by decide⟩).val :=
  dot_S4096x32_S4096x256_S32x256_0_0_1_1_n_n.lhsIdx_val_of_single rfl i q
theorem tile_lhs1 (i : S32x256.Idx) (q : dot_S4096x32_S4096x256_S32x256_0_0_1_1_n_n.contr.Idx) :
    (dot_S4096x32_S4096x256_S32x256_0_0_1_1_n_n.lhsIdx i q 1).val = (i 0).val := by
  unfold DotDims.lhsIdx
  rw [dif_neg (show ¬(1 : Fin S4096x32.rank) ∈ dot_S4096x32_S4096x256_S32x256_0_0_1_1_n_n.lhsBatch by decide), dif_pos (show (1 : Fin S4096x32.rank) ∈ dot_S4096x32_S4096x256_S32x256_0_0_1_1_n_n.lhsNonContracting by decide)]
  rfl
theorem tile_rhs0 (i : S32x256.Idx) (q : dot_S4096x32_S4096x256_S32x256_0_0_1_1_n_n.contr.Idx) :
    (dot_S4096x32_S4096x256_S32x256_0_0_1_1_n_n.rhsIdx i q 0).val = (q ⟨0, by decide⟩).val :=
  dot_S4096x32_S4096x256_S32x256_0_0_1_1_n_n.rhsIdx_val_of_single rfl i q
theorem tile_rhs1 (i : S32x256.Idx) (q : dot_S4096x32_S4096x256_S32x256_0_0_1_1_n_n.contr.Idx) :
    (dot_S4096x32_S4096x256_S32x256_0_0_1_1_n_n.rhsIdx i q 1).val = (i 1).val := by
  unfold DotDims.rhsIdx
  rw [dif_neg (show ¬(1 : Fin S4096x256.rank) ∈ dot_S4096x32_S4096x256_S32x256_0_0_1_1_n_n.rhsBatch by decide), dif_pos (show (1 : Fin S4096x256.rank) ∈ dot_S4096x32_S4096x256_S32x256_0_0_1_1_n_n.rhsNonContracting by decide)]
  rfl

/-- The tile's product into a zero accumulator, at an entry: the 4096 rows contracted. -/
theorem tile_matmul_apply (a : FVec Ideal S4096x32 .bf16) (b : FVec Ideal S4096x256 .bf16) (i : S32x256.Idx) :
    matmul dot_S4096x32_S4096x256_S32x256_0_0_1_1_n_n none a b (constant S32x256 .f32 0x00000000#32) i = ∑ r : Fin 4096, a (tileL i r) * b (tileR i r) := by
  refine (Ideal.matmul_constant_zero_apply dot_S4096x32_S4096x256_S32x256_0_0_1_1_n_n none a b i).trans ?_
  rw [← Equiv.sum_comp (ValueIdx.contrEquiv1 dot_S4096x32_S4096x256_S32x256_0_0_1_1_n_n 4096 rfl rfl).symm]
  refine Finset.sum_congr rfl fun k _ => ?_
  have hk := ValueIdx.contrEquiv1_symm_val dot_S4096x32_S4096x256_S32x256_0_0_1_1_n_n 4096 rfl rfl k
  have el : dot_S4096x32_S4096x256_S32x256_0_0_1_1_n_n.lhsIdx i ((ValueIdx.contrEquiv1 dot_S4096x32_S4096x256_S32x256_0_0_1_1_n_n 4096 rfl rfl).symm k) = tileL i k := funext fun a => Fin.ext (by
    match a with
    | ⟨0, _⟩ => exact (tile_lhs0 _ _).trans hk
    | ⟨1, _⟩ => exact tile_lhs1 _ _)
  have er : dot_S4096x32_S4096x256_S32x256_0_0_1_1_n_n.rhsIdx i ((ValueIdx.contrEquiv1 dot_S4096x32_S4096x256_S32x256_0_0_1_1_n_n 4096 rfl rfl).symm k) = tileR i k := funext fun a => Fin.ext (by
    match a with
    | ⟨0, _⟩ => exact (tile_rhs0 _ _).trans hk
    | ⟨1, _⟩ => exact tile_rhs1 _ _)
  rw [el, er]

/-- The accumulator's new contents: the old entry plus the tile's contribution. -/
theorem pay2_apply (v3 : Vec Ideal S4096x32 .f32) (v5 : Vec Ideal S4096x256 .f32) (v8 : Vec Ideal S32x256 .f32) (i : S32x256.Idx) :
    k0_pay2 (F := Ideal) v3 v5 v8 i = v8 i + ∑ r : Fin 4096, v3 (tileL i r) * v5 (tileR i r) := by
  unfold k0_pay2
  rw [shapeCast_self]
  refine (addf_apply _ _ i).trans ?_
  exact congrArg (v8 i + ·) (tile_matmul_apply _ _ i)

/-- The reset value is zero at every entry. -/
theorem pay1_apply (i : S32x256.Idx) : k0_pay1 (F := Ideal) i = 0 := by
  unfold k0_pay1
  rw [shapeCast_self]
  show Ideal.ofBits .f32 0x00000000#32 = 0
  exact Ideal.ofBits_zero_f32

/-- The value copied out: the accumulator read at the two trailing coordinates. -/
theorem pay3_apply (v16 : Vec Ideal S32x256 .f32) (y : S1x32x256.Idx) :
    k0_pay3 (F := Ideal) v16 y = v16 (fun a => y a.succ) := by
  unfold k0_pay3
  exact shapeCast_addUnit_apply _ v16 _ y

end Cert.KernelIdeal.Hand

end
-- ==== Proof.LibResetSum.lean ====
/-
  Two laws about sums taken in pieces, in any commutative additive monoid (so they hold on the extended reals, with
  their infinities, exactly as on the reals: only associativity and commutativity of addition are used).

  1. Tiling. The sum of the first A * B terms of a sequence is the sum, over A consecutive tiles, of each tile's B terms.

  2. A running total with periodic reset. Walk the steps 0, 1, 2, … keeping a running total that is RESET at every
     step divisible by P (there it becomes that step's term alone) and otherwise grows by the step's term. Then at the
     j-th step of the q-th period the total is the sum of that period's first j + 1 terms; in particular, at a period's
     last step it is the sum of the period's P terms. This is what an accumulator carried along the inner axis of a
     two-axis grid holds when it is cleared at the start of every row of the grid.
-/
import Mathlib.Algebra.BigOperators.Fin

open Finset

namespace Cert.ResetSum

variable {M : Type*} [AddCommMonoid M]

/-- Tiling: the first `A * B` terms, summed tile by tile. -/
theorem sum_range_mul (A B : ℕ) (g : ℕ → M) :
    ∑ n ∈ range (A * B), g n = ∑ a ∈ range A, ∑ b ∈ range B, g (a * B + b) := by
  induction A with
  | zero => rw [Nat.zero_mul, range_zero, sum_empty, sum_empty]
  | succ A ih => rw [Nat.succ_mul, sum_range_add, ih, sum_range_succ]

/-- The running total that is reset at every step divisible by `P`. -/
def resetAcc (P : ℕ) (f : ℕ → M) : ℕ → M
  | 0 => f 0
  | n + 1 => if (n + 1) % P = 0 then f (n + 1) else resetAcc P f n + f (n + 1)

/-- At a step divisible by the period the total is that step's term. -/
theorem resetAcc_of_dvd (P : ℕ) (f : ℕ → M) (n : ℕ) (h : n % P = 0) : resetAcc P f n = f n := by
  cases n with
  | zero => rfl
  | succ n => exact if_pos h

/-- At any other step it grows by that step's term. -/
theorem resetAcc_succ (P : ℕ) (f : ℕ → M) (n : ℕ) (h : ¬(n + 1) % P = 0) :
    resetAcc P f (n + 1) = resetAcc P f n + f (n + 1) := if_neg h

/-- Within a period: at its `j`-th step the total is the sum of the period's first `j + 1` terms. -/
theorem resetAcc_period (P : ℕ) (f : ℕ → M) (q : ℕ) :
    ∀ j, j < P → resetAcc P f (q * P + j) = ∑ k ∈ range (j + 1), f (q * P + k)
  | 0, _ => by
    rw [resetAcc_of_dvd P f _ (by rw [Nat.add_zero, Nat.mul_mod_left]), sum_range_one]
  | j + 1, hj => by
    have hne : ¬(q * P + j + 1) % P = 0 := by
      rw [Nat.add_assoc, Nat.mul_add_mod', Nat.mod_eq_of_lt hj]; exact Nat.succ_ne_zero j
    rw [← Nat.add_assoc, resetAcc_succ P f _ hne, resetAcc_period P f q j (Nat.lt_of_succ_lt hj),
      sum_range_succ _ (j + 1), Nat.add_assoc]

/-- At a period's last step: the sum of the period's `P` terms. -/
theorem resetAcc_last (P : ℕ) (hP : 0 < P) (f : ℕ → M) (q : ℕ) :
    resetAcc P f (q * P + (P - 1)) = ∑ k ∈ range P, f (q * P + k) := by
  rw [resetAcc_period P f q (P - 1) (Nat.sub_lt hP Nat.one_pos), Nat.sub_add_cancel hP]

end Cert.ResetSum
-- ==== Proof.KIV.R0Acc.lean ====
/- Region 0's accumulator, on the extended reals. Each grid point adds to the carried 32×256 accumulator the
   contribution of its tile of 4096 rows, ∑ r, evectors (4096 t + r, e) · x (4096 t + r, h), after clearing it at the
   first point of each of the grid's two rows of 32 points. So after point n it holds the running total of the tile
   sums that restarts at every multiple of 32, and at a row's last point the row's 32 tile sums. -/
import proofs.«109299_j87754771792653_2_alg».proof.Proof.KI.R0Pieces
import proofs.«109299_j87754771792653_2_alg».proof.Proof.KIV.R0Pay
import proofs.«109299_j87754771792653_2_alg».proof.Proof.LibResetSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The row of the two big arrays that tile `t` reads at its `r`-th row. -/
def rowOf (t : ℕ) (r : Fin 4096) : Fin 262144 := ⟨(t * 4096 + r.val) % 262144, Nat.mod_lt _ (by decide)⟩

/-- Tile `t`'s contribution to entry (e, h): its 4096 rows of evectors' column e times x's column h, summed. -/
def tileSum (EV : S262144x32.Idx → EReal) (X : S262144x256.Idx → EReal) (t : ℕ) : S32x256.Idx → EReal :=
  fun i => ∑ r : Fin 4096, EV (ix2 (rowOf t r) ⟨(i 0).val, idx2_lt0 i⟩) * X (ix2 (rowOf t r) ⟨(i 1).val, idx2_lt1 i⟩)

/-- Where the input windows' blocks sit: block `t` of either array starts at row `4096 t`, column 0. -/
theorem idx_in0 : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The evectors block at point `t`, at row `r` and column `e`: the array's row `4096 t + r`. -/
theorem iblk0_0_apply (c : Dev nD) (t : Fin cfg0.N) (y : S4096x32.Idx) (k : S262144x32.Idx)
    (hk0 : (k 0).val = t.val * 4096 + (y 0).val) (hk1 : (k 1).val = (y 1).val) :
    (iblk0 V c 0 t : S4096x32.Idx → EReal) y = (V c main_arg1 : S262144x32.Idx → EReal) k := by
  obtain ⟨h00, h01, -, -⟩ := idx_in0 t
  unfold iblk0
  rw [View.read_apply]
  show V c main_arg1 _ = V c main_arg1 _
  congr 1
  funext a
  apply Fin.ext
  match a with
  | ⟨0, _⟩ => show win0_0.index t 0 * 4096 + 1 * (y 0).val = (k 0).val; rw [h00, hk0]; omega
  | ⟨1, _⟩ => show win0_0.index t 1 * 32 + 1 * (y 1).val = (k 1).val; rw [h01, hk1]; omega

/-- The x block at point `t`, likewise. -/
theorem iblk0_1_apply (c : Dev nD) (t : Fin cfg0.N) (y : S4096x256.Idx) (k : S262144x256.Idx)
    (hk0 : (k 0).val = t.val * 4096 + (y 0).val) (hk1 : (k 1).val = (y 1).val) :
    (iblk0 V c 1 t : S4096x256.Idx → EReal) y = (V c main_arg0 : S262144x256.Idx → EReal) k := by
  obtain ⟨-, -, h10, h11⟩ := idx_in0 t
  unfold iblk0
  rw [View.read_apply]
  show V c main_arg0 _ = V c main_arg0 _
  congr 1
  funext a
  apply Fin.ext
  match a with
  | ⟨0, _⟩ => show win0_1.index t 0 * 4096 + 1 * (y 0).val = (k 0).val; rw [h10, hk0]; omega
  | ⟨1, _⟩ => show win0_1.index t 1 * 256 + 1 * (y 1).val = (k 1).val; rw [h11, hk1]; omega

/-- One point's step of the accumulator: the old contents plus the point's tile sum. -/
theorem step_eq (c : Dev nD) (t : Fin cfg0.N) (v8 : Vec Ideal S32x256 .f32) :
    k0_pay2 (F := Ideal) (iblk0 V c 0 t) (iblk0 V c 1 t) v8 = v8 + tileSum (V c main_arg1) (V c main_arg0) t.val := by
  have hN : t.val < 64 := lt_of_lt_of_eq t.isLt (show cfg0.N = 64 from N_0)
  funext i
  refine (pay2_apply _ _ _ i).trans ?_
  show v8 i + _ = v8 i + tileSum _ _ t.val i
  refine congrArg (v8 i + ·) (Finset.sum_congr rfl fun r _ => ?_)
  have hr : (t.val * 4096 + r.val) % 262144 = t.val * 4096 + r.val := Nat.mod_eq_of_lt (by have := r.isLt; omega)
  refine congrArg₂ (· * ·) ?_ ?_
  · exact iblk0_0_apply V c t (tileL i r) _ (by show (rowOf t.val r).val = _; unfold rowOf; exact hr) rfl
  · exact iblk0_1_apply V c t (tileR i r) _ (by show (rowOf t.val r).val = _; unfold rowOf; exact hr) rfl

theorem outsAt0_congr (c : Dev nD) (n n' : ℕ) (h : n < cfg0.N) (h' : n' < cfg0.N) (e : n = n') :
    outsAt0 V c n h = outsAt0 V c n' h' := by subst e; rfl

/-- The accumulator after point `n` is the running total of the tile sums that restarts at every multiple of 32. -/
theorem scratch_eq (c : Dev nD) : ∀ (n : ℕ) (hn : n < cfg0.N),
    (outsAt0 V c n hn).2 = Cert.ResetSum.resetAcc 32 (tileSum (V c main_arg1) (V c main_arg0)) n
  | 0, hn => by
    rw [scratch_first V c ⟨0, hn⟩ (Nat.zero_mod _), step_eq V c ⟨0, hn⟩]
    show _ + tileSum _ _ 0 = tileSum _ _ 0
    have hz : (k0_pay1 (F := Ideal) : S32x256.Idx → EReal) = 0 := funext fun i => pay1_apply i
    rw [hz, zero_add]
  | n + 1, hn => by
    by_cases h0 : (n + 1) % 32 = 0
    · rw [scratch_first V c ⟨n + 1, hn⟩ h0, step_eq V c ⟨n + 1, hn⟩, Cert.ResetSum.resetAcc_of_dvd 32 _ _ h0]
      have hz : (k0_pay1 (F := Ideal) : S32x256.Idx → EReal) = 0 := funext fun i => pay1_apply i
      rw [hz, zero_add]
    · rw [scratch_next V c ⟨n + 1, hn⟩ h0, step_eq V c ⟨n + 1, hn⟩, Cert.ResetSum.resetAcc_succ 32 _ _ h0]
      refine congrArg (· + tileSum _ _ (n + 1)) ?_
      exact (congrArg Prod.snd (outsAt0_congr V c _ n _ (Nat.lt_of_succ_lt hn) (Nat.add_sub_cancel n 1))).trans
        (scratch_eq c n (Nat.lt_of_succ_lt hn))

/-- At the last point of row `q` of the grid the accumulator holds that row's 32 tile sums. -/
theorem scratch_last (c : Dev nD) (q : ℕ) (hq : q * 32 + 31 < cfg0.N) :
    (outsAt0 V c (q * 32 + 31) hq).2 = ∑ j ∈ Finset.range 32, tileSum (V c main_arg1) (V c main_arg0) (q * 32 + j) :=
  (scratch_eq V c _ hq).trans (Cert.ResetSum.resetAcc_last 32 (by decide) _ q)

end Cert.KernelIdeal.Hand

end
-- ==== Proof.KIV.R0Final.lean ====
/- Region 0's result array on the extended reals. The output window's block index is the grid row
   (t / 32, 0, 0), and the block is written back at a row's last point only, when the accumulator holds the row's
   32 tile sums. So the point at the end of row h writes, into the h-th 32×256 slab of the 2×32×256 array, those
   sums; the two slabs cover the array, which therefore ends holding, at (h, e, k), the sum over row h's 32 tiles
   of the tile's contribution to (e, k). -/
import proofs.«109299_j87754771792653_2_alg».proof.Proof.KIV.R0Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- the two rows' partial sums: entry (h, e, k) is the sum over row h's 32 tiles of the tile's contribution to (e, k) -/
def G0 (EV : S262144x32.Idx → EReal) (X : S262144x256.Idx → EReal) : S2x32x256.Idx → EReal :=
  fun i => ∑ j ∈ Finset.range 32, tileSum EV X ((i 0).val * 32 + j) (ix2 ⟨(i 1).val, (i 1).isLt⟩ ⟨(i 2).val, (i 2).isLt⟩)

/-- Where the output window's blocks sit: the block of point `t` is slab `t / 32` of the array. -/
theorem idx_out0 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a row's last point writes back is its slab of `G0` of the two argument arrays as the region finds them. -/
theorem flushed0_eq (c : Dev nD) (t : Fin cfg0.N) (hf : (cfg0.win 2).flush t = true) :
    (dat0 V c).flushed 2 t = ((cfg0.win 2).blk t).view.read (Elt Ideal) (G0 (V c main_arg1) (V c main_arg0)) := by
  have h31 := (flush0_2 t).mp hf
  have hN : t.val < 64 := lt_of_lt_of_eq t.isLt (show cfg0.N = 64 from N_0)
  obtain ⟨e0, e1, e2⟩ := idx_out0 t
  show (cfg0.win 2).cut (grid0.coords t) ((dat0 V c).after 2 t) = _
  rw [after0_2, out_last V c t h31]
  refine funext fun (y : S1x32x256.Idx) => ?_
  show k0_pay3 (F := Ideal) _ y = G0 _ _ (((cfg0.win 2).blk t).view.emb y)
  rw [pay3_apply]
  have hq : t.val = t.val / 32 * 32 + 31 := by omega
  have hlt : t.val / 32 * 32 + 31 < cfg0.N := lt_of_eq_of_lt hq.symm t.isLt
  rw [(congrArg Prod.snd (outsAt0_congr V c t.val (t.val / 32 * 32 + 31) t.isLt hlt hq)).trans (scratch_last V c (t.val / 32) hlt)]
  have key : ∀ z : S32x256.Idx, (∑ j ∈ Finset.range 32, tileSum (V c main_arg1) (V c main_arg0) (t.val / 32 * 32 + j)) z
      = ∑ j ∈ Finset.range 32, tileSum (V c main_arg1) (V c main_arg0) (t.val / 32 * 32 + j) z := fun z => Finset.sum_apply _ _ _
  refine (key _).trans ?_
  unfold G0
  have hy0 : (y 0).val < 1 := (y 0).isLt
  have c0 : ((((cfg0.win 2).blk t).view.emb y) 0).val = t.val / 32 := by
    show win0_2.index t 0 * 1 + 1 * (y 0).val = t.val / 32
    rw [e0]; omega
  have c1 : ((((cfg0.win 2).blk t).view.emb y) 1).val = (y 1).val := by
    show win0_2.index t 1 * 32 + 1 * (y 1).val = (y 1).val
    rw [e1]; omega
  have c2 : ((((cfg0.win 2).blk t).view.emb y) 2).val = (y 2).val := by
    show win0_2.index t 2 * 256 + 1 * (y 2).val = (y 2).val
    rw [e2]; omega
  refine Finset.sum_congr rfl fun j _ => ?_
  refine congrArg₂ (tileSum (V c main_arg1) (V c main_arg0)) (by rw [c0]) ?_
  funext a
  apply Fin.ext
  match a with
  | ⟨0, _⟩ => exact c1.symm
  | ⟨1, _⟩ => exact c2.symm

/-- The array after the run: `G0` of the two argument arrays, the two slabs covering it. -/
theorem final0 (c : Dev nD) : (dat0 V c).arrAt 2 cfg0.N = G0 (V c main_arg1) (V c main_arg0) :=
  (dat0 V c).arrAt_eq_of_cover 2 (G0 (V c main_arg1) (V c main_arg0)) (flushed0_eq V c) fun i => by
    have hi0 : (i 0 : Nat) < 2 := (i 0).isLt
    have hi1 : (i 1 : Nat) < 32 := (i 1).isLt
    have hi2 : (i 2 : Nat) < 256 := (i 2).isLt
    have hN : cfg0.N = 64 := N_0
    obtain ⟨t, ht⟩ : ∃ t : Fin cfg0.N, t.val = (i 0 : Nat) * 32 + 31 := ⟨⟨(i 0 : Nat) * 32 + 31, by omega⟩, rfl⟩
    obtain ⟨e0, e1, e2⟩ := idx_out0 t
    refine ⟨t, (flush0_2 t).mpr (by omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 32 ≤ (i 1 : Nat) ∧ (i 1 : Nat) < win0_2.index t 1 * 32 + 32
      rw [e1]; omega
    | ⟨2, _⟩ =>
      show win0_2.index t 2 * 256 ≤ (i 2 : Nat) ∧ (i 2 : Nat) < win0_2.index t 2 * 256 + 256
      rw [e2]; omega

end Cert.KernelIdeal.Hand

end
-- ==== Proof.KIV.Host1.lean ====
/- The host operations between the two kernels, at an entry: the two halves of the 2×32×256 partial sums are added
   and the sum is scaled by one plus the scale array's entry. -/
import proofs.«109299_j87754771792653_2_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

/-- The scaled sum of the two halves, as one function of the partial sums `C` and the scale array `S`. -/
def scaled (C : S2x32x256.Idx → EReal) (S : S32x256.Idx → EReal) : S32x256.Idx → EReal :=
  fun i => (Ideal.ofBits .f32 0x3F800000#32 + S i)
    * (C (ix3 (0 : Fin 2) ⟨(i 0).val, idx2_lt0 i⟩ ⟨(i 1).val, idx2_lt1 i⟩) + C (ix3 (1 : Fin 2) ⟨(i 0).val, idx2_lt0 i⟩ ⟨(i 1).val, idx2_lt1 i⟩))

theorem host1_term (W : Valuation τ sig (Elt Ideal)) :
    (StableHlo.after (hostOps1 (F := Ideal)) W (Proc.devRef .tc main_v8) : S32x256.Idx → EReal)
      = mulf (addf (broadcastInDim S32x256 ![] bcast_S_S32x256 (constant (F := Ideal) S_ .f32 0x3F800000#32)) (W (Proc.devRef .tc main_arg5)))
          (addf (shapeCast S32x256 (extractStridedSlice S1x32x256 ![0, 0, 0] (W (Proc.devRef .tc main_v0)) slices_S2x32x256_S1x32x256_0_0_0) shapeCasts_S1x32x256_S32x256)
                (shapeCast S32x256 (extractStridedSlice S1x32x256 ![1, 0, 0] (W (Proc.devRef .tc main_v0)) slices_S2x32x256_S1x32x256_1_0_0) shapeCasts_S1x32x256_S32x256)) := by
  after_results_simp <;> rfl

theorem half_apply (o : Fin 2) (C : S2x32x256.Idx → EReal) (h : S2x32x256.Slices ![o.val, 0, 0] S1x32x256) (p : Fin 32) (q : Fin 256) :
    shapeCast S32x256 (extractStridedSlice S1x32x256 ![o.val, 0, 0] C h) shapeCasts_S1x32x256_S32x256 (ix2 p q) = C (ix3 o p q) := by
  refine (shapeCast_1ab_ab_apply _ _ p q).trans ?_
  refine extractStridedSlice_apply _ _ _ _ _ fun a => ?_
  match a with
  | ⟨0, _⟩ => show o.val = o.val + 0; omega
  | ⟨1, _⟩ => show p.val = 0 + p.val; omega
  | ⟨2, _⟩ => show q.val = 0 + q.val; omega

theorem host1_eq (W : Valuation τ sig (Elt Ideal)) :
    (StableHlo.after (hostOps1 (F := Ideal)) W (Proc.devRef .tc main_v8) : S32x256.Idx → EReal)
      = scaled (W (Proc.devRef .tc main_v0)) (W (Proc.devRef .tc main_arg5)) := by
  rw [host1_term]
  funext i
  obtain ⟨p, q, rfl⟩ : ∃ (p : Fin 32) (q : Fin 256), i = ix2 p q := ⟨i 0, i 1, eq_ix2 i⟩
  unfold scaled
  refine (mulf_apply _ _ _).trans ?_
  refine congrArg₂ (· * ·) ?_ ?_
  · refine (addf_apply _ _ _).trans ?_
    rfl
  · refine (addf_apply _ _ _).trans ?_
    exact congrArg₂ (· + ·) (half_apply 0 _ _ p q) (half_apply 1 _ _ p q)

end Cert.KernelIdeal.Hand

end
-- ==== Proof.Tail.lean ====
/-
  The closing host operations of the two programs, as functions of the centred array, and their equality over
  the extended reals.

  Both programs scatter the squares of the centred array into per-segment sums, divide by the segment counts
  (at least one), add a positive constant and take the square root: a table T with T > 0 everywhere, because a
  sum of squares is nonnegative over the extended reals, a divisor at least one keeps it so, and the square
  root of a positive extended real is positive. One program multiplies by the gathered reciprocal 1 / T, the
  other divides by the gathered T; both gathers read their table at the same index, and a * (1 / t) = a / t
  whenever t ≠ 0.
-/
import proofs.«109299_j87754771792653_2_alg».proof.Proof.Gen.KernelIdeal
import proofs.«109299_j87754771792653_2_alg».proof.Proof.Gen.KernelIdeal.Launch
import proofs.«109299_j87754771792653_2_alg».proof.Proof.Gen.ReferenceIdeal.Run
import Idealize.ShloMosaic.PureOps.Ideal.Laws
import Idealize.ShloMosaic.Lib.ValueIdx
import Idealize.ShloMosaic.Lib.IdealHost
import Idealize.ShloMosaic.Lib.StableHlo.Run

noncomputable section

namespace Cert.Bridge

open Idealize.ShloMosaic Idealize.ShloMosaic.TcCoe Idealize.SL.Sem

/-! ## The two closings as functions of the centred array -/

open Cert.ReferenceIdeal Cert.ReferenceIdeal.Gen in
/-- the reference's closing operations applied to a centred array -/
def tailR (o : (⟨Cert.ReferenceIdeal.S262144x256, .f32⟩ : BufTy).Contents (Elt Ideal)) (x2 : (⟨Cert.ReferenceIdeal.S262144, .i32⟩ : BufTy).Contents (Elt Ideal))
    (x3 x4 : (⟨Cert.ReferenceIdeal.S256, .f32⟩ : BufTy).Contents (Elt Ideal)) : (⟨Cert.ReferenceIdeal.S262144x256, .f32⟩ : BufTy).Contents (Elt Ideal) :=
  addf (F := Ideal) (Host.divf (F := Ideal) (mulf (F := Ideal) (broadcastInDim S262144x256 ![0, 1] bcast_S1x256_S262144x256_0_1 (broadcastInDim S1x256 ![1] bcast_S256_S1x256_1 x3)) o) (Host.gather gather_S1024x256_S262144x1_S262144x256_1_0_n_n_0_1_1256 (Host.sqrt (F := Ideal) (addf (F := Ideal) (Host.divf (F := Ideal) (Host.scatterAdd (F := Ideal) scatter_S1024x256_S262144x1_S262144x256_1_0_0_1 (broadcastInDim S1024x256 ![] bcast_S_S1024x256 (constant (F := Ideal) S_ .f32 0x00000000#32)) (broadcastInDim S262144x1 ![0] bcast_S262144_S262144x1_0 x2) (mulf (F := Ideal) o o)) (broadcastInDim S1024x256 ![0, 1] bcast_S1024x1_S1024x256_0_1 (broadcastInDim S1024x1 ![0] bcast_S1024_S1024x1_0 (maximumf (F := Ideal) (Host.scatterAdd (F := Ideal) scatter_S1024_S262144x1_S262144_n_0_0_1 (broadcastInDim S1024 ![] bcast_S_S1024 (constant (F := Ideal) S_ .f32 0x00000000#32)) (broadcastInDim S262144x1 ![0] bcast_S262144_S262144x1_0 x2) (broadcastInDim S262144 ![] bcast_S_S262144 (constant (F := Ideal) S_ .f32 0x3F800000#32))) (broadcastInDim S1024 ![] bcast_S_S1024 (constant (F := Ideal) S_ .f32 0x3F800000#32)))))) (broadcastInDim S1024x256 ![] bcast_S_S1024x256 (constant (F := Ideal) S_ .f32 0x3727C5AC#32)))) (broadcastInDim S262144x1 ![0] bcast_S262144_S262144x1_0 (select (cmpi .slt x2 (broadcastInDim S262144 ![] bcast_S_S262144 (constantI S_ 32 0#32))) (addi x2 (broadcastInDim S262144 ![] bcast_S_S262144 (constantI S_ 32 1024#32))) x2)))) (broadcastInDim S262144x256 ![0, 1] bcast_S1x256_S262144x256_0_1 (broadcastInDim S1x256 ![1] bcast_S256_S1x256_1 x4))

open Cert.ReferenceIdeal Cert.ReferenceIdeal.Gen in
/-- the reference's whole term is its closing operations applied to its centred array -/
theorem run_term_eq_tailR (x0 : (⟨Cert.ReferenceIdeal.S262144x256, .f32⟩ : BufTy).Contents (Elt Ideal)) (x1 : (⟨Cert.ReferenceIdeal.S262144x32, .f32⟩ : BufTy).Contents (Elt Ideal))
    (x2 : (⟨Cert.ReferenceIdeal.S262144, .i32⟩ : BufTy).Contents (Elt Ideal)) (x3 x4 : (⟨Cert.ReferenceIdeal.S256, .f32⟩ : BufTy).Contents (Elt Ideal)) (x5 : (⟨Cert.ReferenceIdeal.S32x256, .f32⟩ : BufTy).Contents (Elt Ideal)) :
    (addf (F := Ideal) (Host.divf (F := Ideal) (mulf (F := Ideal) (broadcastInDim S262144x256 ![0, 1] bcast_S1x256_S262144x256_0_1 (broadcastInDim S1x256 ![1] bcast_S256_S1x256_1 x3)) (subf (F := Ideal) x0 (Host.dotGeneral (F := Ideal) (φ₁ := .f32) (φ₂ := .f32) dot_S262144x32_S32x256_S262144x256_1_0_0_1_n_n none x1 (mulf (F := Ideal) (addf (F := Ideal) (broadcastInDim S32x256 ![] bcast_S_S32x256 (constant (F := Ideal) S_ .f32 0x3F800000#32)) x5) (Host.dotGeneral (F := Ideal) (φ₁ := .f32) (φ₂ := .f32) dot_S262144x32_S262144x256_S32x256_0_0_1_1_n_n none x1 x0))))) (Host.gather gather_S1024x256_S262144x1_S262144x256_1_0_n_n_0_1_1256 (Host.sqrt (F := Ideal) (addf (F := Ideal) (Host.divf (F := Ideal) (Host.scatterAdd (F := Ideal) scatter_S1024x256_S262144x1_S262144x256_1_0_0_1 (broadcastInDim S1024x256 ![] bcast_S_S1024x256 (constant (F := Ideal) S_ .f32 0x00000000#32)) (broadcastInDim S262144x1 ![0] bcast_S262144_S262144x1_0 x2) (mulf (F := Ideal) (subf (F := Ideal) x0 (Host.dotGeneral (F := Ideal) (φ₁ := .f32) (φ₂ := .f32) dot_S262144x32_S32x256_S262144x256_1_0_0_1_n_n none x1 (mulf (F := Ideal) (addf (F := Ideal) (broadcastInDim S32x256 ![] bcast_S_S32x256 (constant (F := Ideal) S_ .f32 0x3F800000#32)) x5) (Host.dotGeneral (F := Ideal) (φ₁ := .f32) (φ₂ := .f32) dot_S262144x32_S262144x256_S32x256_0_0_1_1_n_n none x1 x0)))) (subf (F := Ideal) x0 (Host.dotGeneral (F := Ideal) (φ₁ := .f32) (φ₂ := .f32) dot_S262144x32_S32x256_S262144x256_1_0_0_1_n_n none x1 (mulf (F := Ideal) (addf (F := Ideal) (broadcastInDim S32x256 ![] bcast_S_S32x256 (constant (F := Ideal) S_ .f32 0x3F800000#32)) x5) (Host.dotGeneral (F := Ideal) (φ₁ := .f32) (φ₂ := .f32) dot_S262144x32_S262144x256_S32x256_0_0_1_1_n_n none x1 x0)))))) (broadcastInDim S1024x256 ![0, 1] bcast_S1024x1_S1024x256_0_1 (broadcastInDim S1024x1 ![0] bcast_S1024_S1024x1_0 (maximumf (F := Ideal) (Host.scatterAdd (F := Ideal) scatter_S1024_S262144x1_S262144_n_0_0_1 (broadcastInDim S1024 ![] bcast_S_S1024 (constant (F := Ideal) S_ .f32 0x00000000#32)) (broadcastInDim S262144x1 ![0] bcast_S262144_S262144x1_0 x2) (broadcastInDim S262144 ![] bcast_S_S262144 (constant (F := Ideal) S_ .f32 0x3F800000#32))) (broadcastInDim S1024 ![] bcast_S_S1024 (constant (F := Ideal) S_ .f32 0x3F800000#32)))))) (broadcastInDim S1024x256 ![] bcast_S_S1024x256 (constant (F := Ideal) S_ .f32 0x3727C5AC#32)))) (broadcastInDim S262144x1 ![0] bcast_S262144_S262144x1_0 (select (cmpi .slt x2 (broadcastInDim S262144 ![] bcast_S_S262144 (constantI S_ 32 0#32))) (addi x2 (broadcastInDim S262144 ![] bcast_S_S262144 (constantI S_ 32 1024#32))) x2)))) (broadcastInDim S262144x256 ![0, 1] bcast_S1x256_S262144x256_0_1 (broadcastInDim S1x256 ![1] bcast_S256_S1x256_1 x4)) : (⟨Cert.ReferenceIdeal.S262144x256, .f32⟩ : BufTy).Contents (Elt Ideal))
      = tailR (subf (F := Ideal) x0 (Host.dotGeneral (F := Ideal) (φ₁ := .f32) (φ₂ := .f32) dot_S262144x32_S32x256_S262144x256_1_0_0_1_n_n none x1 (mulf (F := Ideal) (addf (F := Ideal) (broadcastInDim S32x256 ![] bcast_S_S32x256 (constant (F := Ideal) S_ .f32 0x3F800000#32)) x5) (Host.dotGeneral (F := Ideal) (φ₁ := .f32) (φ₂ := .f32) dot_S262144x32_S262144x256_S32x256_0_0_1_1_n_n none x1 x0)))) x2 x3 x4 := rfl

open Cert.KernelIdeal Cert.KernelIdeal.Gen in
/-- the kernel program's closing operations applied to a centred array -/
def tailK (o : (⟨Cert.KernelIdeal.S262144x256, .f32⟩ : BufTy).Contents (Elt Ideal)) (x2 : (⟨Cert.KernelIdeal.S262144, .i32⟩ : BufTy).Contents (Elt Ideal))
    (x3 x4 : (⟨Cert.KernelIdeal.S256, .f32⟩ : BufTy).Contents (Elt Ideal)) : (⟨Cert.KernelIdeal.S262144x256, .f32⟩ : BufTy).Contents (Elt Ideal) :=
  addf (F := Ideal) (mulf (F := Ideal) (mulf (F := Ideal) (broadcastInDim S262144x256 ![0, 1] bcast_S1x256_S262144x256_0_1 (broadcastInDim S1x256 ![1] bcast_S256_S1x256_1 x3)) o) (Host.gather gather_S1024x256_S262144x1_S262144x256_1_0_n_n_0_1_1256 (Host.divf (F := Ideal) (broadcastInDim S1024x256 ![] bcast_S_S1024x256 (constant (F := Ideal) S_ .f32 0x3F800000#32)) (Host.sqrt (F := Ideal) (addf (F := Ideal) (Host.divf (F := Ideal) (Host.scatterAdd (F := Ideal) scatter_S1024x256_S262144x1_S262144x256_1_0_0_1 (broadcastInDim S1024x256 ![] bcast_S_S1024x256 (constant (F := Ideal) S_ .f32 0x00000000#32)) (broadcastInDim S262144x1 ![0] bcast_S262144_S262144x1_0 x2) (mulf (F := Ideal) o o)) (broadcastInDim S1024x256 ![0, 1] bcast_S1024x1_S1024x256_0_1 (broadcastInDim S1024x1 ![0] bcast_S1024_S1024x1_0 (maximumf (F := Ideal) (Host.scatterAdd (F := Ideal) scatter_S1024_S262144x1_S262144_n_0_0_1 (broadcastInDim S1024 ![] bcast_S_S1024 (constant (F := Ideal) S_ .f32 0x00000000#32)) (broadcastInDim S262144x1 ![0] bcast_S262144_S262144x1_0 x2) (broadcastInDim S262144 ![] bcast_S_S262144 (constant (F := Ideal) S_ .f32 0x3F800000#32))) (broadcastInDim S1024 ![] bcast_S_S1024 (constant (F := Ideal) S_ .f32 0x3F800000#32)))))) (broadcastInDim S1024x256 ![] bcast_S_S1024x256 (constant (F := Ideal) S_ .f32 0x3727C5AC#32))))) (broadcastInDim S262144x1 ![0] bcast_S262144_S262144x1_0 (select (cmpi .slt x2 (broadcastInDim S262144 ![] bcast_S_S262144 (constantI S_ 32 0#32))) (addi x2 (broadcastInDim S262144 ![] bcast_S_S262144 (constantI S_ 32 1024#32))) x2)))) (broadcastInDim S262144x256 ![0, 1] bcast_S1x256_S262144x256_0_1 (broadcastInDim S1x256 ![1] bcast_S256_S1x256_1 x4))

open Cert.KernelIdeal Cert.KernelIdeal.Gen Idealize.ShloMosaic.StableHlo in
set_option maxRecDepth 8192 in
set_option maxHeartbeats 2000000 in
/-- the kernel program's last forty host operations leave its result buffer at the closing operations' value -/
theorem tailK_spec (W : Valuation Cert.KernelIdeal.τ Cert.KernelIdeal.sig (Elt Ideal)) :
    StableHlo.after (Cert.KernelIdeal.Gen.hostOps2 (F := Ideal)) W (Proc.devRef .tc Cert.KernelIdeal.main_v41)
      = tailK (W (Proc.devRef .tc Cert.KernelIdeal.main_v9)) (W (Proc.devRef .tc Cert.KernelIdeal.main_arg2))
          (W (Proc.devRef .tc Cert.KernelIdeal.main_arg3)) (W (Proc.devRef .tc Cert.KernelIdeal.main_arg4)) := by
  after_results_simp <;> rfl

/-! ## Scalar facts over the extended reals -/

/-- A square is nonnegative over the extended reals (both infinities square to the top). -/
theorem mul_self_nonneg_ereal (a : EReal) : 0 ≤ a * a := by
  induction a using EReal.rec with
  | bot => simp
  | coe r => rw [← EReal.coe_mul]; exact_mod_cast mul_self_nonneg r
  | top => simp

/-- A nonnegative numerator over a divisor at least one gives a nonnegative quotient (an infinite divisor gives zero). -/
theorem div_nonneg_of_one_le {a m : EReal} (ha : 0 ≤ a) (hm : 1 ≤ m) : 0 ≤ Ideal.div a m := by
  have hm0 : m ≠ 0 := (lt_of_lt_of_le zero_lt_one hm).ne'
  unfold Ideal.div
  rw [if_neg hm0]
  exact mul_nonneg ha (EReal.inv_nonneg_of_nonneg (zero_le_one.trans hm))

/-- The square root of a positive extended real is positive (the top goes to the top). -/
theorem sqrt_pos_of_pos {x : EReal} (hx : 0 < x) : 0 < Ideal.sqrt x := by
  induction x using EReal.rec with
  | bot => exact absurd hx (by simp)
  | coe r =>
    have hr : 0 < r := by exact_mod_cast hx
    rw [Ideal.sqrt_coe, if_neg (not_lt.mpr hr.le)]
    exact_mod_cast Real.sqrt_pos.mpr hr
  | top => simp

/-- The added constant, the f32 pattern 0x3727C5AC (about 1e-5), is a positive real. -/
theorem eps_pos : (0 : EReal) < Ideal.ofBits .f32 0x3727C5AC#32 := by
  simp [Ideal.ofBits, Ideal.ieee, -EReal.coe_mul]

/-- the host's square root at an index -/
theorem hostSqrt_apply {s : Shape} {φ : FTy} (a : FVec Ideal s φ) (i : s.Idx) : Host.sqrt a i = Ideal.sqrt (a i) := rfl

/-! ## The tables both programs compute -/

open Cert.ReferenceIdeal Cert.ReferenceIdeal.Gen in
/-- a length-256 vector repeated along every row -/
def rowBcast (x : (⟨Cert.ReferenceIdeal.S256, .f32⟩ : BufTy).Contents (Elt Ideal)) : FVec Ideal S262144x256 .f32 :=
  broadcastInDim S262144x256 ![0, 1] bcast_S1x256_S262144x256_0_1 (broadcastInDim S1x256 ![1] bcast_S256_S1x256_1 x)

open Cert.ReferenceIdeal Cert.ReferenceIdeal.Gen in
/-- per segment and column, the sum of the squares of the centred array's entries -/
def sqTab (o : (⟨Cert.ReferenceIdeal.S262144x256, .f32⟩ : BufTy).Contents (Elt Ideal)) (x2 : (⟨Cert.ReferenceIdeal.S262144, .i32⟩ : BufTy).Contents (Elt Ideal)) : FVec Ideal S1024x256 .f32 :=
  Host.scatterAdd (F := Ideal) scatter_S1024x256_S262144x1_S262144x256_1_0_0_1 (broadcastInDim S1024x256 ![] bcast_S_S1024x256 (constant (F := Ideal) S_ .f32 0x00000000#32)) (broadcastInDim S262144x1 ![0] bcast_S262144_S262144x1_0 x2) (mulf (F := Ideal) o o)

open Cert.ReferenceIdeal Cert.ReferenceIdeal.Gen in
/-- per segment, the larger of its row count and one -/
def divisorVec (x2 : (⟨Cert.ReferenceIdeal.S262144, .i32⟩ : BufTy).Contents (Elt Ideal)) : FVec Ideal S1024 .f32 :=
  maximumf (F := Ideal) (Host.scatterAdd (F := Ideal) scatter_S1024_S262144x1_S262144_n_0_0_1 (broadcastInDim S1024 ![] bcast_S_S1024 (constant (F := Ideal) S_ .f32 0x00000000#32)) (broadcastInDim S262144x1 ![0] bcast_S262144_S262144x1_0 x2) (broadcastInDim S262144 ![] bcast_S_S262144 (constant (F := Ideal) S_ .f32 0x3F800000#32))) (broadcastInDim S1024 ![] bcast_S_S1024 (constant (F := Ideal) S_ .f32 0x3F800000#32))

open Cert.ReferenceIdeal Cert.ReferenceIdeal.Gen in
/-- the divisor repeated along every column -/
def divisorTab (x2 : (⟨Cert.ReferenceIdeal.S262144, .i32⟩ : BufTy).Contents (Elt Ideal)) : FVec Ideal S1024x256 .f32 :=
  broadcastInDim S1024x256 ![0, 1] bcast_S1024x1_S1024x256_0_1 (broadcastInDim S1024x1 ![0] bcast_S1024_S1024x1_0 (divisorVec x2))

open Cert.ReferenceIdeal Cert.ReferenceIdeal.Gen in
/-- the table T: the square root of (sum of squares / divisor + the positive constant) -/
def rootTab (o : (⟨Cert.ReferenceIdeal.S262144x256, .f32⟩ : BufTy).Contents (Elt Ideal)) (x2 : (⟨Cert.ReferenceIdeal.S262144, .i32⟩ : BufTy).Contents (Elt Ideal)) : FVec Ideal S1024x256 .f32 :=
  Host.sqrt (F := Ideal) (addf (F := Ideal) (Host.divf (F := Ideal) (sqTab o x2) (divisorTab x2)) (broadcastInDim S1024x256 ![] bcast_S_S1024x256 (constant (F := Ideal) S_ .f32 0x3727C5AC#32)))

open Cert.ReferenceIdeal Cert.ReferenceIdeal.Gen in
/-- the gather's start indices: a negative segment number counted from the end -/
def rowIdx (x2 : (⟨Cert.ReferenceIdeal.S262144, .i32⟩ : BufTy).Contents (Elt Ideal)) : IVec S262144x1 32 :=
  broadcastInDim S262144x1 ![0] bcast_S262144_S262144x1_0 (select (cmpi .slt x2 (broadcastInDim S262144 ![] bcast_S_S262144 (constantI S_ 32 0#32))) (addi x2 (broadcastInDim S262144 ![] bcast_S_S262144 (constantI S_ 32 1024#32))) x2)

open Cert.ReferenceIdeal Cert.ReferenceIdeal.Gen in
/-- the reference divides by the gathered table -/
theorem tailR_eq (o : (⟨Cert.ReferenceIdeal.S262144x256, .f32⟩ : BufTy).Contents (Elt Ideal)) (x2 : (⟨Cert.ReferenceIdeal.S262144, .i32⟩ : BufTy).Contents (Elt Ideal)) (x3 x4 : (⟨Cert.ReferenceIdeal.S256, .f32⟩ : BufTy).Contents (Elt Ideal)) :
    tailR o x2 x3 x4 = addf (F := Ideal) (Host.divf (F := Ideal) (mulf (F := Ideal) (rowBcast x3) o)
      (Host.gather gather_S1024x256_S262144x1_S262144x256_1_0_n_n_0_1_1256 (rootTab o x2) (rowIdx x2))) (rowBcast x4) := rfl

open Cert.ReferenceIdeal Cert.ReferenceIdeal.Gen in
/-- the kernel program multiplies by the gathered reciprocal of the same table -/
theorem tailK_eq (o : (⟨Cert.ReferenceIdeal.S262144x256, .f32⟩ : BufTy).Contents (Elt Ideal)) (x2 : (⟨Cert.ReferenceIdeal.S262144, .i32⟩ : BufTy).Contents (Elt Ideal)) (x3 x4 : (⟨Cert.ReferenceIdeal.S256, .f32⟩ : BufTy).Contents (Elt Ideal)) :
    tailK o x2 x3 x4 = addf (F := Ideal) (mulf (F := Ideal) (mulf (F := Ideal) (rowBcast x3) o)
      (Host.gather gather_S1024x256_S262144x1_S262144x256_1_0_n_n_0_1_1256
        (Host.divf (F := Ideal) (broadcastInDim S1024x256 ![] bcast_S_S1024x256 (constant (F := Ideal) S_ .f32 0x3F800000#32)) (rootTab o x2))
        (rowIdx x2))) (rowBcast x4) := rfl

/-! ## The table is positive -/

open Cert.ReferenceIdeal Cert.ReferenceIdeal.Gen Idealize.ShloMosaic.ValueIdx in
/-- a sum of squares added to zero is nonnegative -/
theorem sqTab_nonneg (o : (⟨Cert.ReferenceIdeal.S262144x256, .f32⟩ : BufTy).Contents (Elt Ideal)) (x2 : (⟨Cert.ReferenceIdeal.S262144, .i32⟩ : BufTy).Contents (Elt Ideal)) (p : S1024x256.Idx) :
    0 ≤ sqTab o x2 p := by
  unfold sqTab Host.scatterAdd
  rw [Ideal.hostScatterAdd_def]
  unfold Ideal.hostScatterAdd
  refine add_nonneg (le_of_eq ?_) (Finset.sum_nonneg fun j _ => mul_self_nonneg_ereal (o j))
  rw [broadcastInDim_scalar_apply, constant_apply, Ideal.ofBits_zero_f32]

open Cert.ReferenceIdeal Cert.ReferenceIdeal.Gen in
/-- the larger of anything and one is at least one -/
theorem one_le_divisorVec (x2 : (⟨Cert.ReferenceIdeal.S262144, .i32⟩ : BufTy).Contents (Elt Ideal)) (q : S1024.Idx) : 1 ≤ divisorVec x2 q := by
  unfold divisorVec
  rw [Idealize.ShloMosaic.ValueIdx.maximumf_apply, Idealize.ShloMosaic.ValueIdx.broadcastInDim_scalar_apply,
    Idealize.ShloMosaic.ValueIdx.constant_apply, Ideal.ofBits_one_f32]
  exact le_max_right _ _

open Cert.ReferenceIdeal Cert.ReferenceIdeal.Gen in
theorem one_le_divisorTab (x2 : (⟨Cert.ReferenceIdeal.S262144, .i32⟩ : BufTy).Contents (Elt Ideal)) (p : S1024x256.Idx) : 1 ≤ divisorTab x2 p :=
  one_le_divisorVec x2 _

open Cert.ReferenceIdeal Cert.ReferenceIdeal.Gen in
/-- T is positive at every entry -/
theorem rootTab_pos (o : (⟨Cert.ReferenceIdeal.S262144x256, .f32⟩ : BufTy).Contents (Elt Ideal)) (x2 : (⟨Cert.ReferenceIdeal.S262144, .i32⟩ : BufTy).Contents (Elt Ideal)) (p : S1024x256.Idx) :
    0 < rootTab o x2 p := by
  unfold rootTab
  rw [hostSqrt_apply, Idealize.ShloMosaic.ValueIdx.addf_apply, Idealize.ShloMosaic.ValueIdx.hostDivf_apply,
    Idealize.ShloMosaic.ValueIdx.broadcastInDim_scalar_apply, Idealize.ShloMosaic.ValueIdx.constant_apply]
  exact sqrt_pos_of_pos (lt_of_lt_of_le eps_pos
    (le_add_of_nonneg_left (div_nonneg_of_one_le (sqTab_nonneg o x2 p) (one_le_divisorTab x2 p))))

/-! ## The two closings agree -/

open Cert.ReferenceIdeal Cert.ReferenceIdeal.Gen in
/-- multiplying by the gathered reciprocal of T is dividing by the gathered T, since T is nowhere zero -/
theorem tail_eq (o : (⟨Cert.ReferenceIdeal.S262144x256, .f32⟩ : BufTy).Contents (Elt Ideal)) (x2 : (⟨Cert.ReferenceIdeal.S262144, .i32⟩ : BufTy).Contents (Elt Ideal)) (x3 x4 : (⟨Cert.ReferenceIdeal.S256, .f32⟩ : BufTy).Contents (Elt Ideal)) :
    tailK o x2 x3 x4 = tailR o x2 x3 x4 := by
  rw [tailK_eq, tailR_eq]
  funext j
  have hT : rootTab o x2 (gather_S1024x256_S262144x1_S262144x256_1_0_n_n_0_1_1256.operandIdx j (rowIdx x2)) ≠ 0 :=
    (rootTab_pos o x2 _).ne'
  simp only [Idealize.ShloMosaic.ValueIdx.addf_apply, Idealize.ShloMosaic.ValueIdx.mulf_apply,
    Idealize.ShloMosaic.ValueIdx.hostDivf_apply, Host.gather]
  rw [Idealize.ShloMosaic.ValueIdx.broadcastInDim_scalar_apply, Idealize.ShloMosaic.ValueIdx.constant_apply,
    Ideal.ofBits_one_f32, Ideal.mul_one_div hT]

end Cert.Bridge

end
-- ==== Proof.KIV.Chain.lean ====
/- The kernel program's result as one function of its arguments, on the extended reals: read through the fold of buffer
   contents — region 0 leaves the two rows' partial sums, the first host stretch scales their sum, region 1 leaves
   the centred array, the second host stretch applies the closing operations. -/
import proofs.«109299_j87754771792653_2_alg».proof.Proof.KI.Run
import proofs.«109299_j87754771792653_2_alg».proof.Proof.KI.R1Value
import proofs.«109299_j87754771792653_2_alg».proof.Proof.KIV.R0Final
import proofs.«109299_j87754771792653_2_alg».proof.Proof.KIV.Host1
import proofs.«109299_j87754771792653_2_alg».proof.Proof.Tail

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The centred array as the kernel program computes it from the launch memory of core `c`. -/
def centreK (c : Dev nD) : S262144x256.Idx → EReal :=
  G1 (m ((c : Thread nD τ).loc main_arg0)) (m ((c : Thread nD τ).loc main_arg1))
    (scaled (G0 (m ((c : Thread nD τ).loc main_arg1)) (m ((c : Thread nD τ).loc main_arg0))) (m ((c : Thread nD τ).loc main_arg5)))

theorem W1_main_v0 (c : Dev nD) :
    (W1 m ρ c (Proc.devRef .tc main_v0) : S2x32x256.Idx → EReal)
      = G0 (m ((c : Thread nD τ).loc main_arg1)) (m ((c : Thread nD τ).loc main_arg0)) :=
  (W1_arr m ρ c 2).trans (final0 (V0 m ρ) c)

theorem W2_main_v8 (c : Dev nD) :
    (W2 m ρ c (Proc.devRef .tc main_v8) : S32x256.Idx → EReal)
      = scaled (G0 (m ((c : Thread nD τ).loc main_arg1)) (m ((c : Thread nD τ).loc main_arg0))) (m ((c : Thread nD τ).loc main_arg5)) := by
  refine (host1_eq (W1 m ρ c)).trans ?_
  rw [W1_main_v0 m ρ c, W1_main_arg5 m ρ c]

theorem W3_main_v9 (c : Dev nD) : (W3 m ρ c (Proc.devRef .tc main_v9) : S262144x256.Idx → EReal) = centreK m c := by
  refine (W3_arr m ρ c 3).trans ((final1 (V2 m ρ) c).trans ?_)
  unfold centreK
  rw [show V2 m ρ c main_arg0 = W2 m ρ c (Proc.devRef .tc main_arg0) from rfl, W2_main_arg0 m ρ c,
    show V2 m ρ c main_arg1 = W2 m ρ c (Proc.devRef .tc main_arg1) from rfl, W2_main_arg1 m ρ c,
    show V2 m ρ c main_v8 = W2 m ρ c (Proc.devRef .tc main_v8) from rfl, W2_main_v8 m ρ c]

/-- The program's result buffer at its end: the closing operations applied to the centred array. -/
theorem W4_main_v41 (c : Dev nD) :
    W4 m ρ c (Proc.devRef .tc main_v41)
      = Cert.Bridge.tailK (centreK m c) (m ((c : Thread nD τ).loc main_arg2)) (m ((c : Thread nD τ).loc main_arg3)) (m ((c : Thread nD τ).loc main_arg4)) := by
  refine (Cert.Bridge.tailK_spec (W3 m ρ c)).trans ?_
  rw [W3_main_v9 m ρ c, W3_main_arg2 m ρ c, W3_main_arg3 m ρ c, W3_main_arg4 m ρ c]

/-- The kernel program's run with its result named. -/
theorem run_value : θ_run defs (onTc (τ := τ) (main (F := Ideal))) ⟨m, fun _ => 0, ρ⟩ (fun r => ∀ c : Dev nD,
      r.2.mem ((c.tc : Thread nD τ).loc main_v41)
        = Cert.Bridge.tailK (centreK m c) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v41 (by decide))).trans (W4_main_v41 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.KIV.Sums.lean ====
/- A sum over 262144 = 2 · 32 · 4096 consecutive terms, taken as two rows of 32 tiles of 4096 terms: only
   associativity and commutativity of addition are used, so it holds in any commutative additive monoid (the extended
   reals among them). -/
import proofs.«109299_j87754771792653_2_alg».proof.Proof.LibResetSum

open Finset

namespace Cert.Bridge

variable {M : Type*} [AddCommMonoid M]

theorem sum_two_rows (g : ℕ → M) :
    ∑ n ∈ range 262144, g n
      = (∑ j ∈ range 32, ∑ r ∈ range 4096, g ((0 * 32 + j) * 4096 + r))
        + ∑ j ∈ range 32, ∑ r ∈ range 4096, g ((1 * 32 + j) * 4096 + r) := by
  rw [show (262144 : ℕ) = (2 * 32) * 4096 from rfl, Cert.ResetSum.sum_range_mul (2 * 32) 4096 g,
    Cert.ResetSum.sum_range_mul 2 32 (fun a => ∑ b ∈ range 4096, g (a * 4096 + b)),
    sum_range_succ, sum_range_one]

/-- A sum over `Fin 4096` as the sum over the first 4096 naturals. -/
theorem sum_fin_4096 (f : ℕ → M) : ∑ r : Fin 4096, f r.val = ∑ r ∈ range 4096, f r := (Finset.sum_range f).symm

/-- A sum over `Fin 262144` as the sum over the first 262144 naturals. -/
theorem sum_fin_262144 (f : ℕ → M) : ∑ n : Fin 262144, f n.val = ∑ n ∈ range 262144, f n := (Finset.sum_range f).symm

end Cert.Bridge
-- ==== Proof.KIV.Bridge.lean ====
/- The two programs' centred arrays are one function of the arguments.
   The kernel side subtracts from x (n, h) the sum over e of evectors (n, e) times
   (1 + scales (e, h)) · (the two rows' partial sums of ∑ n', evectors (n', e) · x (n', h));
   the reference subtracts the same with the inner sum taken once over all 262144 rows. The two inner sums are equal by
   regrouping 262144 consecutive terms as 2 rows of 32 tiles of 4096 — associativity and commutativity of addition only,
   so no finiteness of the inputs is needed. -/
import proofs.«109299_j87754771792653_2_alg».proof.Proof.KI.R1Value
import proofs.«109299_j87754771792653_2_alg».proof.Proof.KIV.R0Acc
import proofs.«109299_j87754771792653_2_alg».proof.Proof.KIV.Host1
import proofs.«109299_j87754771792653_2_alg».proof.Proof.KIV.Sums
import proofs.«109299_j87754771792653_2_alg».proof.Proof.Gen.ReferenceIdeal.Read

noncomputable section

namespace Cert.Bridge

open Idealize.ShloMosaic Idealize.ShloMosaic.TcCoe Idealize.SL.Sem
open Idealize.ShloMosaic.ValueIdx
open Cert.KernelIdeal Cert.KernelIdeal.Hand
open Cert.ReferenceIdeal.Read (val_main_v0 val_main_v1 val_main_v2 val_main_v3 val_main_v4 val_main_v5 val_main_cst
  val_main_v0_apply val_main_v1_apply val_main_v2_apply val_main_v3_apply val_main_v4_apply val_main_v5_apply val_main_cst_apply
  lidx_main_v0 ridx_main_v0 lidx_main_v4 ridx_main_v4)

variable (x0 : S262144x256.Idx → EReal) (x1 : S262144x32.Idx → EReal) (x5 : S32x256.Idx → EReal)

/-- The product at row `n` (taken modulo the row count, so that it is defined for every natural number). -/
def term (e : Fin 32) (h : Fin 256) (n : ℕ) : EReal :=
  x1 (ix2 (⟨n % 262144, Nat.mod_lt _ (by decide)⟩ : Fin 262144) e) * x0 (ix2 (⟨n % 262144, Nat.mod_lt _ (by decide)⟩ : Fin 262144) h)

/-- A tile's contribution is its 4096 consecutive terms. -/
theorem tileSum_eq (t : ℕ) (e : Fin 32) (h : Fin 256) :
    tileSum x1 x0 t (ix2 e h) = ∑ r ∈ Finset.range 4096, term x0 x1 e h (t * 4096 + r) := by
  rw [← sum_fin_4096 (fun r => term x0 x1 e h (t * 4096 + r))]
  rfl

/-- The reference's inner sum over all rows is the sum of the first 262144 terms. -/
theorem all_rows_eq (e : Fin 32) (h : Fin 256) :
    (∑ n : Fin 262144, x1 (lidx_main_v0 (ix2 e h) n) * x0 (ridx_main_v0 (ix2 e h) n)) = ∑ n ∈ Finset.range 262144, term x0 x1 e h n := by
  rw [← sum_fin_262144 (fun n => term x0 x1 e h n)]
  refine Finset.sum_congr rfl fun n _ => ?_
  have hn : n.val % 262144 = n.val := Nat.mod_eq_of_lt n.isLt
  unfold term
  refine congrArg₂ (· * ·) (congrArg x1 ?_) (congrArg x0 ?_)
  · funext a; apply Fin.ext
    match a with
    | ⟨0, _⟩ => exact hn.symm
    | ⟨1, _⟩ => rfl
  · funext a; apply Fin.ext
    match a with
    | ⟨0, _⟩ => exact hn.symm
    | ⟨1, _⟩ => rfl

/-- The scaled partial sums are the reference's scaled contraction, for any array `C` of the two rows' partial sums. -/
theorem scaled_eq (C : S2x32x256.Idx → EReal)
    (hC : ∀ (q : Fin 2) (e : Fin 32) (h : Fin 256), C (ix3 q e h) = ∑ j ∈ Finset.range 32, tileSum x1 x0 (q.val * 32 + j) (ix2 e h))
    (j : S32x256.Idx) : scaled C x5 j = val_main_v3 (F := Ideal) x0 x1 x5 j := by
  obtain ⟨e, h, rfl⟩ : ∃ (e : Fin 32) (h : Fin 256), j = ix2 e h := ⟨j 0, j 1, eq_ix2 j⟩
  rw [val_main_v3_apply, val_main_v2_apply, val_main_v1_apply, val_main_cst_apply, val_main_v0_apply, all_rows_eq,
    Cert.Bridge.sum_two_rows]
  unfold scaled
  show (Ideal.ofBits .f32 0x3F800000#32 + x5 (ix2 e h)) * (C (ix3 (0 : Fin 2) e h) + C (ix3 (1 : Fin 2) e h)) = (Ideal.ofBits .f32 0x3F800000#32 + x5 (ix2 e h)) * _
  refine congrArg (fun z : EReal => (Ideal.ofBits .f32 0x3F800000#32 + x5 (ix2 e h)) * z) ?_
  rw [hC 0 e h, hC 1 e h]
  refine congrArg₂ (· + ·) (Finset.sum_congr rfl fun j _ => tileSum_eq x0 x1 _ e h) (Finset.sum_congr rfl fun j _ => tileSum_eq x0 x1 _ e h)

/-- THE CENTRED ARRAYS AGREE. -/
theorem centre_eq (C : S2x32x256.Idx → EReal)
    (hC : ∀ (q : Fin 2) (e : Fin 32) (h : Fin 256), C (ix3 q e h) = ∑ j ∈ Finset.range 32, tileSum x1 x0 (q.val * 32 + j) (ix2 e h)) :
    G1 x0 x1 (scaled C x5) = val_main_v5 (F := Ideal) x0 x1 x5 := by
  funext i
  rw [val_main_v5_apply, val_main_v4_apply]
  unfold G1
  show x0 i - _ = x0 i - _
  refine congrArg (x0 i - ·) (Finset.sum_congr rfl fun k _ => ?_)
  have e1 : (ix2 (⟨(i 0).val, (i 0).isLt⟩ : Fin 262144) k : S262144x32.Idx) = lidx_main_v4 i k :=
    funext fun a => by match a with | ⟨0, _⟩ => rfl | ⟨1, _⟩ => rfl
  have e2 : (ix2 k (⟨(i 1).val, (i 1).isLt⟩ : Fin 256) : S32x256.Idx) = ridx_main_v4 i k :=
    funext fun a => by match a with | ⟨0, _⟩ => rfl | ⟨1, _⟩ => rfl
  rw [e1, e2]
  exact congrArg (fun z : EReal => x1 (lidx_main_v4 i k) * z) (scaled_eq x0 x1 x5 C hC _)

end Cert.Bridge

end
-- ==== Proof.lean ====
/- The proof of `Cert.Claim`: both kernel programs run to the end with their arguments unchanged, the reference
   likewise, and at the ideal instance the kernel program and the reference end with the same result.
   The mathematics. Both programs centre x by subtracting, at (n, h), ∑ e, evectors (n, e) · (1 + scales (e, h)) · S (e, h)
   with S (e, h) = ∑ n', evectors (n', e) · x (n', h): the kernel accumulates S tile by tile (4096 rows a tile, two rows of
   32 tiles, the two partial sums added afterwards), the reference in one contraction; the sums agree by regrouping, on
   all extended reals. Both then normalise by the per-segment root mean square: the kernel multiplies by 1 / √(var + ε)
   gathered per row, the reference divides by the gathered √(var + ε); the two agree because the gathered divisor is
   never zero (var is a sum of squares over a divisor at least one, so var + ε > 0), and a · (1 / s) = a / s for s ≠ 0. -/
import proofs.«109299_j87754771792653_2_alg».proof.Defs
import proofs.«109299_j87754771792653_2_alg».proof.Proof.K.Run
import proofs.«109299_j87754771792653_2_alg».proof.Proof.KI.Run
import proofs.«109299_j87754771792653_2_alg».proof.Proof.KIV.Chain
import proofs.«109299_j87754771792653_2_alg».proof.Proof.KIV.Bridge
import proofs.«109299_j87754771792653_2_alg».proof.Proof.Tail
import proofs.«109299_j87754771792653_2_alg».proof.Proof.Gen.Kernel
import proofs.«109299_j87754771792653_2_alg».proof.Proof.Gen.KernelIdeal
import proofs.«109299_j87754771792653_2_alg».proof.Proof.Gen.ReferenceIdeal
import proofs.«109299_j87754771792653_2_alg».proof.Proof.Gen.ReferenceIdeal.Run
import proofs.«109299_j87754771792653_2_alg».proof.Proof.Gen.ReferenceIdeal.Read
import proofs.«109299_j87754771792653_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The partial-sum array's entries are the rows' tile sums. -/
theorem G0_entries (EV : Cert.KernelIdeal.S262144x32.Idx → EReal) (X : Cert.KernelIdeal.S262144x256.Idx → EReal)
    (q : Fin 2) (e : Fin 32) (h : Fin 256) :
    Cert.KernelIdeal.Hand.G0 EV X (ix3 q e h)
      = ∑ j ∈ Finset.range 32, Cert.KernelIdeal.Hand.tileSum EV X (q.val * 32 + j) (ix2 e h) := rfl

theorem algebraic : Cert.algebraic_KernelIdeal_ReferenceIdeal := by
  intro m ρ m' ρ' _ hagree
  refine ⟨fun c => Cert.Bridge.tailK (Cert.KernelIdeal.Hand.centreK m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.Bridge.run_term_eq_tailR _ _ _ _ _ _).trans ?_
  refine (Cert.Bridge.tail_eq _ _ _ _).symm.trans ?_
  refine congrArg (fun o => Cert.Bridge.tailK o _ _ _) ?_
  exact (Cert.Bridge.centre_eq _ _ _ _ (G0_entries _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
